-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1x4096 : Shape := ⟨2, ![1, 4096]⟩
abbrev S256x4096 : Shape := ⟨2, ![256, 4096]⟩
abbrev S4096x256 : Shape := ⟨2, ![4096, 256]⟩
abbrev S1x256 : Shape := ⟨2, ![1, 256]⟩
abbrev S256 : Shape := ⟨1, ![256]⟩
abbrev S256x1 : Shape := ⟨2, ![256, 1]⟩
abbrev S1024x512 : Shape := ⟨2, ![1024, 512]⟩
abbrev S512x2048 : Shape := ⟨2, ![512, 2048]⟩
abbrev S1x2048 : Shape := ⟨2, ![1, 2048]⟩
abbrev S1024x2048 : Shape := ⟨2, ![1024, 2048]⟩

abbrev nBuf : Space → Nat
  | .hbm => 5
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .bf16⟩
  | .hbm, ⟨3, _⟩ => ⟨S1x4096, .f32⟩
  | .hbm, ⟨4, _⟩ => ⟨S8192x4096, .f32⟩
  | .local _ .vmem, ⟨0, _⟩ => ⟨S256x4096, .f32⟩
  | .local _ .vmem, ⟨1, _⟩ => ⟨S256x4096, .f32⟩
  | .local _ .vmem, ⟨2, _⟩ => ⟨S4096x256, .bf16⟩
  | .local _ .vmem, ⟨3, _⟩ => ⟨S4096x256, .bf16⟩
  | .local _ .vmem, ⟨4, _⟩ => ⟨S1x256, .f32⟩
  | .local _ .vmem, ⟨5, _⟩ => ⟨S1x256, .f32⟩
  | .local _ .vmem, ⟨6, _⟩ => ⟨S1024x512, .f32⟩
  | .local _ .vmem, ⟨7, _⟩ => ⟨S1024x512, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | .local _ .vmem, ⟨11, _⟩ => ⟨S1x2048, .f32⟩
  | .local _ .vmem, ⟨12, _⟩ => ⟨S1024x2048, .f32⟩
  | .local _ .vmem, ⟨13, _⟩ => ⟨S1024x2048, .f32⟩
  | .local _ .vmem, ⟨14, _⟩ => ⟨S1024x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨3, ![8, 2, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  transposes_S256x4096_p1_0_S4096x256 : S256x4096.Transposes [1, 0] S4096x256
  bitsLt_bf16_f32 : FTy.bits .bf16 < FTy.bits .f32
  inb_S4096x256_S4096x256_0_0 : ∀ a, (![0, 0] : Fin 2 → Nat) a + S4096x256.size a ≤ S4096x256.size a
  h_S4096x256 : 0 < S4096x256.numel
  packedbf16_S4096x256_S4096x256_0_0 : (Rect.unit (s := S4096x256) ![0, 0] S4096x256.size inb_S4096x256_S4096x256_0_0).PackedRows (EltTy.packing .bf16)
  transposes_S256x1_p1_0_S1x256 : S256x1.Transposes [1, 0] S1x256
  inb_S1x256_S1x256_0_0 : ∀ a, (![0, 0] : Fin 2 → Nat) a + S1x256.size a ≤ S1x256.size a
  h_S1x256 : 0 < S1x256.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x512_S1024x512_0_0 : ∀ a, (![0, 0] : Fin 2 → Nat) a + S1024x512.size a ≤ S1024x512.size a
  h_S1024x512 : 0 < S1024x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  dot_S1024x512_S512x2048_S1024x2048_1_0_0_1_n_n_wf : DotDims.WF S1024x512 S512x2048 S1024x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .f32 = 32 ∨ (Rect.block (s := S4096x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S4096x4096.size a
  hwx0_1 : ∀ i : grid0.Coords, EltTy.bits .bf16 = 32 ∨ (Rect.block (s := S4096x4096) S4096x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x4096.size a
  hwx0_2 : ∀ i : grid0.Coords, EltTy.bits .f32 = 32 ∨ (Rect.block (s := S1x4096) S1x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S8192x4096.size a
  hwx1_0 : ∀ i : grid1.Coords, EltTy.bits .f32 = 32 ∨ (Rect.block (s := S8192x4096) S1024x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S4096x4096.size a
  hwx1_1 : ∀ i : grid1.Coords, EltTy.bits .bf16 = 32 ∨ (Rect.block (s := S4096x4096) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048.size a ≤ S1x4096.size a
  hwx1_2 : ∀ i : grid1.Coords, EltTy.bits .f32 = 32 ∨ (Rect.block (s := S1x4096) S1x2048.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S8192x4096.size a
  hwx1_3 : ∀ i : grid1.Coords, EltTy.bits .f32 = 32 ∨ (Rect.block (s := S8192x4096) S1024x2048.size (cc1_transform_3 i) (hinb1_3 i)).WholeWords (EltTy.packing .f32)

variable [Facts₀]

def dot_S1024x512_S512x2048_S1024x2048_1_0_0_1_n_n : DotDims S1024x512 S512x2048 S1024x2048 where
  lhsContracting := [1]
  rhsContracting := [0]
  lhsNonContracting := [0]
  rhsNonContracting := [1]
  lhsBatch := []
  rhsBatch := []
  wf := dot_S1024x512_S512x2048_S1024x2048_1_0_0_1_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S4096x256.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_0) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S1x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1024x2048.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 28
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_call0_v0 : Ref sig .tc := ⟨.hbm, 10, rfl⟩
abbrev main_call0_v1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call2_v0 : Ref sig .tc := ⟨.hbm, 18, rfl⟩
abbrev main_call2_v1 : Ref sig .tc := ⟨.hbm, 19, rfl⟩
abbrev main_call2_v2 : Ref sig .tc := ⟨.hbm, 20, rfl⟩
abbrev main_call2_v3 : Ref sig .tc := ⟨.hbm, 21, rfl⟩
abbrev main_call2_v4 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BQuant.lean ====
/-
  The quantizer's region, per grid point: a block of 256 rows of the weight is read, each row's
  scale max(mean |w|, ε) and its ternary codes clamp(round(w / scale), −1, 1) are computed, and the
  codes (transposed) and the scales (as a row) are stored whole into the two output blocks.  This
  module states what the two output buffers hold after the body as a function of the input block,
  proves the body's triple, and discharges the region's obligation at every grid point.
-/
import proofs.«157252_j3169685865296_2_alg».proof.Proof.Gen.Kernel.Launch
import proofs.«157252_j3169685865296_2_alg».proof.Proof.Gen.Kernel.Skeleton
import proofs.«157252_j3169685865296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight block sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0
abbrev r0_1 : Rect S4096x256 := Rect.unit (s := S4096x256) ![0, 0] S4096x256.size inb_S4096x256_S4096x256_0_0
abbrev r0_2 : Rect S1x256 := Rect.unit (s := S1x256) ![0, 0] S1x256.size inb_S1x256_S1x256_0_0

/-- The codes' buffer after the body: one whole store of the transposed codes of the weight block. -/
def out0_1 (x0 : Vec F S256x4096 .f32) : Vec F S4096x256 .bf16 :=
  View.canon [⟨r0_1, k0_pay2 (View.ld x0 r0_0)⟩]
/-- The scales' buffer after the body: one whole store of the row of scales of the weight block. -/
def out0_2 (x0 : Vec F S256x4096 .f32) : Vec F S1x256 .f32 :=
  View.canon [⟨r0_2, k0_pay3 (View.ld x0 r0_0)⟩]

theorem cover0_1 (p0 : Vec F S4096x256 .bf16) (y : S4096x256.Idx) :
    ∃ pc ∈ ([⟨r0_1, p0⟩] : List (View.Piece (Elt F) S4096x256 .bf16)), y ∈ pc.1.set :=
  View.cover_of_tiled [⟨r0_1, p0⟩] S4096x256.size (by rfl) y
theorem cover0_2 (p0 : Vec F S1x256 .f32) (y : S1x256.Idx) :
    ∃ pc ∈ ([⟨r0_2, p0⟩] : List (View.Piece (Elt F) S1x256 .f32)), y ∈ pc.1.set :=
  View.cover_of_tiled [⟨r0_2, p0⟩] S1x256.size (by rfl) y

set_option maxHeartbeats 1000000 in
/-- The body on whole staging buffers: the input's kept, each output's at its stored value. -/
theorem sound_kernel0 (c : Dev nD) (E : Set ℕ) (i : grid0.Coords) (arg1 : Memref sig .tc .vmem S256x4096 .f32) (harg1 : arg1.IsWhole)
    (arg2 : Memref sig .tc .vmem S4096x256 .bf16) (harg2 : arg2.IsWhole) (arg3 : Memref sig .tc .vmem S1x256 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data: arrays as found; after each point the input's buffer at its block and
    each output's at its stored value; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BMatmulDefs.lean ====
/-
  The matmul region: what its three cases share.  A grid point (i, j, k) multiplies a 1024×512 block of x
  with a 512×2048 block of the codes and adds the product into a 1024×2048 accumulator kept in a scratch
  buffer across the eight points k = 0..7 of one output block; the accumulator is zeroed first when
  k = 0, and when k = 7 it is multiplied by the row of scales and stored into the output block.
  Here: the two branch conditions in closed form over the grid, where the output window is idle, and
  the names of the staging buffers the body is called with.
-/
import proofs.«157252_j3169685865296_2_alg».proof.Proof.Gen.Kernel.Launch
import proofs.«157252_j3169685865296_2_alg».proof.Proof.Gen.Kernel.Skeleton
import proofs.«157252_j3169685865296_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input block sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- "This is the first of the eight accumulation steps" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last of the eight accumulation steps" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step nothing is stored into the output block and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view
abbrev VO1_3 : View sig .tc .vmem S1024x2048 .f32 := (Memref.whole cc1_stg3_0 : Memref sig .tc .vmem S1024x2048 .f32).view

/-- The scoped buffers of the core that the matmul region neither stages through nor accumulates in
    (the quantizer's six staging buffers), each at some contents, beside a statement `S` about the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

theorem restWith_mono (c : Dev nD) {S S' : sProp 𝕄} (h : S ⊢ S') : restWith c S ⊢ restWith c S' := by
  unfold restWith
  iintro ⟨Ha, Hb, Hc, Hd, He, Hf, HS⟩
  isplitl [Ha]; · iexact Ha
  isplitl [Hb]; · iexact Hb
  isplitl [Hc]; · iexact Hc
  isplitl [Hd]; · iexact Hd
  isplitl [He]; · iexact He
  isplitl [Hf]; · iexact Hf
  iapply h; iexact HS

/-- The class invariant of the region with the accumulator named as an owned memref. -/
theorem PhiA1_eq (c : Dev nD) :
    (Pipeline.ΦA spec1 c : sProp 𝕄)
      = iprop(restWith c (iprop(∃ d, owns (c : Thread nD τ) scM1 fullShare d)) ∗ (∃ r, prngReg c r)) := by
  unfold Pipeline.ΦA restWith; rw [scopedRest1_eq]; simp only [scM1, owns_whole]; try rfl

end Cert.Kernel.Hand

end
-- ==== Proof.BMatmulRunA.lean ====
/-
  The matmul body at a first step (k = 0): the accumulator is zeroed, then the product of the two blocks is added; the output block is left as found.
-/
import proofs.«157252_j3169685865296_2_alg».proof.Proof.BMatmulDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    iexists _; iexact HS0

end Cert.Kernel.Hand

end
-- ==== Proof.BMatmulRunB.lean ====
/-
  The matmul body at a middle step (0 < k < 7): the product of the two blocks is added to the accumulator; the output block is left as found.
-/
import proofs.«157252_j3169685865296_2_alg».proof.Proof.BMatmulDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    iexists _; iexact HS0

end Cert.Kernel.Hand

end
-- ==== Proof.BMatmulRunC.lean ====
/-
  The matmul body at a last step (k = 7): the product is added to the accumulator, and the accumulator times the row of scales is stored into the output block.
-/
import proofs.«157252_j3169685865296_2_alg».proof.Proof.BMatmulDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.Kernel.Hand

end
-- ==== Proof.BMatmul.lean ====
/-
  The matmul region assembled: what the accumulator holds after each grid point (by recursion on the
  point: zeroed and restarted when k = 0, otherwise the previous contents plus this point's block
  product), what the output block's buffer holds after a last step (the accumulator times the row of
  scales), the region's invariant carrying the accumulator between points, and the body's obligation
  at every point, by cases on k = 0, 0 < k < 7, k = 7.
-/
import proofs.«157252_j3169685865296_2_alg».proof.Proof.BMatmulRunA
import proofs.«157252_j3169685865296_2_alg».proof.Proof.BMatmulRunB
import proofs.«157252_j3169685865296_2_alg».proof.Proof.BMatmulRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y
def sout1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y
def sout1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).1)

theorem scover1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
def sout1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)
theorem cover1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
def out1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## The case of a point, from its position -/

theorem caseA0 (t : Fin cfg1.N) (h0 : t.val % 8 = 0) : cond1_0 (grid1.coords t) := (hcond1_0 t).mpr h0
theorem caseA1 (t : Fin cfg1.N) (h0 : t.val % 8 = 0) : ¬cond1_1 (grid1.coords t) := fun h => by have h' := (hcond1_1 t).mp h; omega
theorem caseN0 (t : Fin cfg1.N) (h0 : ¬t.val % 8 = 0) : ¬cond1_0 (grid1.coords t) := fun h => h0 ((hcond1_0 t).mp h)
theorem caseN1 (t : Fin cfg1.N) (h1 : ¬t.val % 8 = 7) : ¬cond1_1 (grid1.coords t) := fun h => h1 ((hcond1_1 t).mp h)
theorem caseC1 (t : Fin cfg1.N) (h1 : t.val % 8 = 7) : cond1_1 (grid1.coords t) := (hcond1_1 t).mpr h1

section Region1
variable (V : (c : Dev nD) → (b : Ref sig .tc) → Buf (Elt F) ((c : Thread nD τ).loc b))

/-- THE ACCUMULATION: what the accumulator holds after the body at position `n`. -/
def accAt (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (caseA0 ⟨0, hn⟩ (Nat.zero_mod _)) (caseA1 ⟨0, hn⟩ (Nat.zero_mod _)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseA0 ⟨n + 1, hn⟩ h0) (caseA1 ⟨n + 1, hn⟩ h0) (iblk1 V c 0 ⟨n + 1, hn⟩) (iblk1 V c 1 ⟨n + 1, hn⟩) (iblk1 V c 2 ⟨n + 1, hn⟩)
    else if h1 : (n + 1) % 8 = 7 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseN0 ⟨n + 1, hn⟩ h0) (caseC1 ⟨n + 1, hn⟩ h1) (iblk1 V c 0 ⟨n + 1, hn⟩) (iblk1 V c 1 ⟨n + 1, hn⟩) (iblk1 V c 2 ⟨n + 1, hn⟩) (accAt c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseN0 ⟨n + 1, hn⟩ h0) (caseN1 ⟨n + 1, hn⟩ h1) (iblk1 V c 0 ⟨n + 1, hn⟩) (iblk1 V c 1 ⟨n + 1, hn⟩) (iblk1 V c 2 ⟨n + 1, hn⟩) (accAt c n (Nat.lt_of_succ_lt hn))

theorem accAt_A (c : Dev nD) (t : Fin cfg1.N) (h0 : t.val % 8 = 0) :
    accAt V c t.val t.isLt = sout1_A c (grid1.coords t) (ms1_0 t) (hs1_0 t) (ms1_1 t) (hs1_1 t) (ms1_2 t) (hs1_2 t) (ms1_3 t) (hs1_3 t) scM1 (Memref.isWhole_whole _) (caseA0 t h0) (caseA1 t h0) (iblk1 V c 0 t) (iblk1 V c 1 t) (iblk1 V c 2 t) := by
  obtain ⟨n, hn⟩ := t
  cases n with
  | zero => exact rfl
  | succ n => exact (dif_pos h0).trans rfl

theorem accAt_B (c : Dev nD) (t : Fin cfg1.N) (h0 : ¬t.val % 8 = 0) (h1 : ¬t.val % 8 = 7) :
    accAt V c t.val t.isLt = sout1_B c (grid1.coords t) (ms1_0 t) (hs1_0 t) (ms1_1 t) (hs1_1 t) (ms1_2 t) (hs1_2 t) (ms1_3 t) (hs1_3 t) scM1 (Memref.isWhole_whole _) (caseN0 t h0) (caseN1 t h1) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 8 = 0) (h1 : t.val % 8 = 7) :
    accAt V c t.val t.isLt = sout1_C c (grid1.coords t) (ms1_0 t) (hs1_0 t) (ms1_1 t) (hs1_1 t) (ms1_2 t) (hs1_2 t) (ms1_3 t) (hs1_3 t) scM1 (Memref.isWhole_whole _) (caseN0 t h0) (caseC1 t h1) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at a last step: the accumulator (the previous
    point's, plus this point's product) times the row of scales.  At the other points the field is
    not consulted (the window is idle there); zeros stand in. -/
def outAt (c : Dev nD) (t : Fin cfg1.N) : Vec F S1024x2048 .f32 :=
  if h1 : t.val % 8 = 7 then
    out1_C c (grid1.coords t) (ms1_0 t) (hs1_0 t) (ms1_1 t) (hs1_1 t) (ms1_2 t) (hs1_2 t) (ms1_3 t) (hs1_3 t) scM1 (Memref.isWhole_whole _) (caseN0 t (by omega)) (caseC1 t h1) (iblk1 V c 0 t) (iblk1 V c 1 t) (iblk1 V c 2 t) (accAt V c (t.val - 1) (Nat.lt_of_le_of_lt (Nat.sub_le _ _) t.isLt))
  else k1_pay1 (F := F)

theorem outAt_C (c : Dev nD) (t : Fin cfg1.N) (h0 : ¬t.val % 8 = 0) (h1 : t.val % 8 = 7) :
    outAt V c t = out1_C c (grid1.coords t) (ms1_0 t) (hs1_0 t) (ms1_1 t) (hs1_1 t) (ms1_2 t) (hs1_2 t) (ms1_3 t) (hs1_3 t) scM1 (Memref.isWhole_whole _) (caseN0 t h0) (caseC1 t h1) (iblk1 V c 0 t) (iblk1 V c 1 t) (iblk1 V c 2 t) (accAt V c (t.val - 1) (Nat.lt_of_le_of_lt (Nat.sub_le _ _) t.isLt)) := by
  unfold outAt; rw [dif_pos h1]

/-- The region's invariant before position `n`: before the first point the class's; afterwards the
    scoped rest with the accumulator at what the point before left, and the generator register. -/
def PhiS (c : Dev nD) : (n : ℕ) → n ≤ cfg1.N → sProp 𝕄
  | 0, _ => Pipeline.ΦA spec1 c
  | n + 1, hn => iprop(restWith c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1 fullShare (accAt V c n hn)) ∗ (∃ r, prngReg c r)) := rfl
theorem PhiS_pos (c : Dev nD) (n : ℕ) (h : n ≤ cfg1.N) (hz : n ≠ 0) :
    PhiS V c n h = iprop(restWith c (owns (c : Thread nD τ) scM1 fullShare (accAt V c (n - 1) (by omega))) ∗ (∃ r, prngReg c r)) := by
  cases n with
  | zero => exact absurd rfl hz
  | succ n => rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) (h : cond1_1 (grid1.coords t)) : (dat1 V c).leavesExact 3 t = owns (c : Thread nD τ) (ms1_3 t) fullShare (outAt V c t) := by
  unfold Dat.leavesExact; rw [liveAt1_3 t h, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 8 = 0
  · have hc1 := caseA1 t h0
    rw [Dat.leavesExact_idle (dat1 V c) 3 t (idleAt1_3 t hc1) (noFlush1_3 t hc1)]
    rw [accAt_A V c t h0]
    unfold sout1_A; (try dsimp only)
    by_cases hz : t.val = 0
    · rw [PhiS_castSucc V c t, PhiS_zero V c _ _ hz, PhiA1_eq]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_A c (grid1.coords t) _ _ _ _ _ _ _ _ _ _ (caseA0 t h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_A c (grid1.coords t) _ _ _ _ _ _ _ _ _ _ (caseA0 t h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 := caseN0 t h0
    by_cases h1 : t.val % 8 = 7
    · have hc1 := caseC1 t h1
      rw [leaves1_3 V c t hc1, outAt_C V c t h0 h1]
      rw [accAt_C V c t h0 h1]
      unfold out1_C sout1_C; (try dsimp only)
      rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 := caseN1 t h1
      rw [Dat.leavesExact_idle (dat1 V c) 3 t (idleAt1_3 t hc1) (noFlush1_3 t hc1)]
      rw [accAt_B V c t h0 h1]
      unfold sout1_B; (try dsimp only)
      rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem forget_acc (c : Dev nD) (X : Vec F S1024x2048 .f32) :
    (owns (c : Thread nD τ) scM1 fullShare X : sProp 𝕄) ⊢ iprop(∃ d, owns (c : Thread nD τ) scM1 fullShare d) := by
  iintro H; iexists _; iexact H

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨HS0, Hg⟩
  isplitl [HS0]
  · iapply (restWith_mono c (forget_acc c _))
    iexact HS0
  iexact Hg

theorem hin1' (c : Dev nD) : (iprop(Pipeline.scopedRest (Ix := Unit) (Name := ℕ) (U := UR sig nD τ) (Lvl := ℕ) (Val := Elt F) spec1 c ∗ ∃ r, prngReg c r) : sProp 𝕄) ⊢ (dat1 V c).Φ 0 := by
  have h := hin1 V c; unfold Pipeline.ΦA at h; exact h
theorem hout1' (c : Dev nD) : (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c; unfold Pipeline.ΦA at h; exact h

end Region1

end Cert.Kernel.Hand

end
-- ==== Proof.BRun.lean ====
/-
  The whole program as two regions in sequence.  The buffer contents at each boundary are a fold
  from the launch memory: after the quantizer its two output arrays hold what its write-backs leave,
  after the matmul the result array does; every other buffer is as it was.  Each region is entered
  from "every unscoped buffer at the boundary's contents" and left at the next boundary's; the run
  ends with every unscoped buffer at the last boundary's contents, from which the two arguments read
  back as launched.
-/
import proofs.«157252_j3169685865296_2_alg».proof.Proof.BQuant
import proofs.«157252_j3169685865296_2_alg».proof.Proof.BMatmul

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantizer: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the matmul: its arrays at what its write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- x is an input of the matmul and untouched by the quantizer. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl
/-- The weight is an input of the quantizer and untouched by the matmul. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- The result array ends at what the matmul's write-backs leave. -/
theorem W2_main_v1 (c : Dev nD) : W2 m ρ c (Proc.devRef .tc main_v1) = (dat1 (V1 m ρ) c).arrAt 3 cfg1.N := W2_arr m ρ c 3
/-- The codes and the scales, as the matmul finds them, are what the quantizer's write-backs leave. -/
theorem V1_main_v0_0 (c : Dev nD) : V1 m ρ c main_v0_0 = (dat0 (V0 m ρ) c).arrAt 1 cfg0.N := W1_arr m ρ c 1
theorem V1_main_v0_1 (c : Dev nD) : V1 m ρ c main_v0_1 = (dat0 (V0 m ρ) c).arrAt 2 cfg0.N := W1_arr m ρ c 2
theorem V1_main_arg0 (c : Dev nD) : V1 m ρ c main_arg0 = m ((c : Thread nD τ).loc main_arg0) := W1_of_ne m ρ c main_arg0 (by decide)

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- The quantizer's region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul's region over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    iintro ⟨Hp, -, Hr⟩
    iapply (hin1' (V1 m ρ) c)
    isplitl [Hr]; · iexact Hr
    iexact Hp
  hout c := by
    rw [Pipeline.ownSems0_none, show (pdats m ρ 1 c).Φ (Fin.last _) = (dat1 (V1 m ρ) c).Φ (Fin.last cfg1.N) from rfl]
    iintro Hphi
    ihave H := (hout1' (V1 m ρ) c) $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_all m ρ)

end Cert.Kernel.Hand

end
-- ==== Proof.IQuant.lean ====
/-
  The quantizer's region, per grid point: a block of 256 rows of the weight is read, each row's
  scale max(mean |w|, ε) and its ternary codes clamp(round(w / scale), −1, 1) are computed, and the
  codes (transposed) and the scales (as a row) are stored whole into the two output blocks.  This
  module states what the two output buffers hold after the body as a function of the input block,
  proves the body's triple, and discharges the region's obligation at every grid point.
-/
import proofs.«157252_j3169685865296_2_alg».proof.Proof.Gen.KernelIdeal.Launch
import proofs.«157252_j3169685865296_2_alg».proof.Proof.Gen.KernelIdeal.Skeleton
import proofs.«157252_j3169685865296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The weight block sits in its staging buffer at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S256x4096 := Rect.unit (s := S256x4096) ![0, 0] S256x4096.size inb_S256x4096_S256x4096_0_0
abbrev r0_1 : Rect S4096x256 := Rect.unit (s := S4096x256) ![0, 0] S4096x256.size inb_S4096x256_S4096x256_0_0
abbrev r0_2 : Rect S1x256 := Rect.unit (s := S1x256) ![0, 0] S1x256.size inb_S1x256_S1x256_0_0

/-- The codes' buffer after the body: one whole store of the transposed codes of the weight block. -/
def out0_1 (x0 : Vec F S256x4096 .f32) : Vec F S4096x256 .bf16 :=
  View.canon [⟨r0_1, k0_pay2 (View.ld x0 r0_0)⟩]
/-- The scales' buffer after the body: one whole store of the row of scales of the weight block. -/
def out0_2 (x0 : Vec F S256x4096 .f32) : Vec F S1x256 .f32 :=
  View.canon [⟨r0_2, k0_pay3 (View.ld x0 r0_0)⟩]

theorem cover0_1 (p0 : Vec F S4096x256 .bf16) (y : S4096x256.Idx) :
    ∃ pc ∈ ([⟨r0_1, p0⟩] : List (View.Piece (Elt F) S4096x256 .bf16)), y ∈ pc.1.set :=
  View.cover_of_tiled [⟨r0_1, p0⟩] S4096x256.size (by rfl) y
theorem cover0_2 (p0 : Vec F S1x256 .f32) (y : S1x256.Idx) :
    ∃ pc ∈ ([⟨r0_2, p0⟩] : List (View.Piece (Elt F) S1x256 .f32)), y ∈ pc.1.set :=
  View.cover_of_tiled [⟨r0_2, p0⟩] S1x256.size (by rfl) y

set_option maxHeartbeats 1000000 in
/-- The body on whole staging buffers: the input's kept, each output's at its stored value. -/
theorem sound_kernel0 (c : Dev nD) (E : Set ℕ) (i : grid0.Coords) (arg1 : Memref sig .tc .vmem S256x4096 .f32) (harg1 : arg1.IsWhole)
    (arg2 : Memref sig .tc .vmem S4096x256 .bf16) (harg2 : arg2.IsWhole) (arg3 : Memref sig .tc .vmem S1x256 .f32) (harg3 : arg3.IsWhole)
    (x0 : Vec F S256x4096 .f32) (K : PUnit → sProp 𝕄) :
    iprop(owns (c : Thread nD τ) arg1 fullShare x0 ∗ (∃ d, owns (c : Thread nD τ) arg2 fullShare d) ∗ (∃ d, owns (c : Thread nD τ) arg3 fullShare d)
        ∗ (iprop(owns (c : Thread nD τ) arg1 fullShare x0 ∗ owns (c : Thread nD τ) arg2 fullShare (out0_1 x0) ∗ owns (c : Thread nD τ) arg3 fullShare (out0_2 x0)) -∗ K ⟨⟩))
      ⊢ wp frame (wpE (defs₀ (F := F)) Variants.none c none) E (cc0__quant_kernel i arg1 harg1 arg2 harg2 arg3 harg3) K := by
  simp only [cc0__quant_kernel_eq_skeleton]; unfold cc0__quant_kernel_skel
  unfold owns
  iintro ⟨⟨%f0, %hf0, H0⟩, ⟨%d1, %f1, -, H1⟩, ⟨%d2, %f2, -, H2⟩, Hk⟩
  subst hf0
  sl_exec
  sl_step
  iapply Hk
  isplitl [H0]
  · iexists f0; isplitr; · ipureintro; rfl
    iexact H0
  isplitl [H1]
  · iexists _; isplitr
    swap; · iexact H1
    ipureintro
    exact View.read_writes_eq_canon _ _ _ (cover0_1 _)
  iexists _; isplitr
  swap; · iexact H2
  ipureintro
  exact View.read_writes_eq_canon _ _ _ (cover0_2 _)

/-- The region's proof data: arrays as found; after each point the input's buffer at its block and
    each output's at its stored value; the invariant the scoped rest and the generator register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
    | ⟨2, _⟩ => out0_2 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]
theorem after0_2 (c : Dev nD) (t : Fin cfg0.N) : (dat0 V c).after 2 t = out0_2 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) _)
  isplitl [H0]; · iexact H0
  isplitl [H1]; · iexists _; iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.IMatmulDefs.lean ====
/-
  The matmul region: what its three cases share.  A grid point (i, j, k) multiplies a 1024×512 block of x
  with a 512×2048 block of the codes and adds the product into a 1024×2048 accumulator kept in a scratch
  buffer across the eight points k = 0..7 of one output block; the accumulator is zeroed first when
  k = 0, and when k = 7 it is multiplied by the row of scales and stored into the output block.
  Here: the two branch conditions in closed form over the grid, where the output window is idle, and
  the names of the staging buffers the body is called with.
-/
import proofs.«157252_j3169685865296_2_alg».proof.Proof.Gen.KernelIdeal.Launch
import proofs.«157252_j3169685865296_2_alg».proof.Proof.Gen.KernelIdeal.Skeleton
import proofs.«157252_j3169685865296_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input block sits in its staging buffer at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-- "This is the first of the eight accumulation steps" (k = 0), as the body computes it. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)
/-- "This is the last of the eight accumulation steps" (k = 7). -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last step nothing is stored into the output block and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S1024x512 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x2048 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x2048 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x2048 .f32 := win1_3.stage (cfg1.slots t 3)
abbrev hs1_3 (t : Fin cfg1.N) : (ms1_3 t).IsWhole := hstage1_3 ((cfg1.slots t 3).cast nbuf1_3)
/-- The accumulator: a whole scoped buffer of the kernel's own. -/
abbrev scM1 : Memref sig .tc .vmem S1024x2048 .f32 := Memref.whole cc1_scratch0
abbrev VS1 : View sig .tc .vmem S1024x2048 .f32 := scM1.view
abbrev VO1_3 : View sig .tc .vmem S1024x2048 .f32 := (Memref.whole cc1_stg3_0 : Memref sig .tc .vmem S1024x2048 .f32).view

/-- The scoped buffers of the core that the matmul region neither stages through nor accumulates in
    (the quantizer's six staging buffers), each at some contents, beside a statement `S` about the accumulator. -/
def restWith (c : Dev nD) (S : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ S)

theorem restWith_mono (c : Dev nD) {S S' : sProp 𝕄} (h : S ⊢ S') : restWith c S ⊢ restWith c S' := by
  unfold restWith
  iintro ⟨Ha, Hb, Hc, Hd, He, Hf, HS⟩
  isplitl [Ha]; · iexact Ha
  isplitl [Hb]; · iexact Hb
  isplitl [Hc]; · iexact Hc
  isplitl [Hd]; · iexact Hd
  isplitl [He]; · iexact He
  isplitl [Hf]; · iexact Hf
  iapply h; iexact HS

/-- The class invariant of the region with the accumulator named as an owned memref. -/
theorem PhiA1_eq (c : Dev nD) :
    (Pipeline.ΦA spec1 c : sProp 𝕄)
      = iprop(restWith c (iprop(∃ d, owns (c : Thread nD τ) scM1 fullShare d)) ∗ (∃ r, prngReg c r)) := by
  unfold Pipeline.ΦA restWith; rw [scopedRest1_eq]; simp only [scM1, owns_whole]; try rfl

end Cert.KernelIdeal.Hand

end
-- ==== Proof.IMatmulRunA.lean ====
/-
  The matmul body at a first step (k = 0): the accumulator is zeroed, then the product of the two blocks is added; the output block is left as found.
-/
import proofs.«157252_j3169685865296_2_alg».proof.Proof.IMatmulDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    iexists _; iexact HS0

end Cert.KernelIdeal.Hand

end
-- ==== Proof.IMatmulRunB.lean ====
/-
  The matmul body at a middle step (0 < k < 7): the product of the two blocks is added to the accumulator; the output block is left as found.
-/
import proofs.«157252_j3169685865296_2_alg».proof.Proof.IMatmulDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    { LS0 : List (View.Piece (Elt F) S1024x2048 .f32) //
      ∀ (xi3 : Vec F S1024x2048 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact hf3
      iexact H3
    iexists _; iexact HS0

end Cert.KernelIdeal.Hand

end
-- ==== Proof.IMatmulRunC.lean ====
/-
  The matmul body at a last step (k = 7): the product is added to the accumulator, and the accumulator times the row of scales is stored into the output block.
-/
import proofs.«157252_j3169685865296_2_alg».proof.Proof.IMatmulDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    Σ' (L3 : List (View.Piece (Elt F) S1024x2048 .f32)), { LS0 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; iexact H3
    iexists _; iexact HS0

end Cert.KernelIdeal.Hand

end
-- ==== Proof.IMatmul.lean ====
/-
  The matmul region assembled: what the accumulator holds after each grid point (by recursion on the
  point: zeroed and restarted when k = 0, otherwise the previous contents plus this point's block
  product), what the output block's buffer holds after a last step (the accumulator times the row of
  scales), the region's invariant carrying the accumulator between points, and the body's obligation
  at every point, by cases on k = 0, 0 < k < 7, k = 7.
-/
import proofs.«157252_j3169685865296_2_alg».proof.Proof.IMatmulRunA
import proofs.«157252_j3169685865296_2_alg».proof.Proof.IMatmulRunB
import proofs.«157252_j3169685865296_2_alg».proof.Proof.IMatmulRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each case leaves -/

theorem scover1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) (y : S1024x2048.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S1024x2048.size (by sl_kernel_rfl) y
def sout1_A (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) : Vec F S1024x2048 .f32 :=
  VS1.read (Elt F) (VS1.writes (Elt F) VS1.junk (kernelRun1_A c i arg3 harg3 arg4 harg4 arg5 harg5 arg6 harg6 arg7 harg7 hc0 hc1 x0 x1 x2).1)

theorem scover1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) (y : S1024x2048.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S1024x2048.size (by sl_kernel_rfl) y
def sout1_B (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) : Vec F S1024x2048 .f32 :=
  VS1.read (Elt F) (VS1.writes (Elt F) VS1.junk (kernelRun1_B c i arg3 harg3 arg4 harg4 arg5 harg5 arg6 harg6 arg7 harg7 hc0 hc1 x0 x1 x2 xs0).1)

theorem scover1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x2048.size (by sl_kernel_rfl) y
def sout1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VS1.read (Elt F) (VS1.writes (Elt F) VS1.junk (kernelRun1_C c i arg3 harg3 arg4 harg4 arg5 harg5 arg6 harg6 arg7 harg7 hc0 hc1 x0 x1 x2 xs0).2.1)
theorem cover1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) (y : S1024x2048.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x2048.size (by sl_kernel_rfl) y
def out1_C (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) : Vec F S1024x2048 .f32 :=
  VO1_3.read (Elt F) (VO1_3.writes (Elt F) VO1_3.junk (kernelRun1_C c i arg3 harg3 arg4 harg4 arg5 harg5 arg6 harg6 arg7 harg7 hc0 hc1 x0 x1 x2 xs0).1)

/-! ## The case of a point, from its position -/

theorem caseA0 (t : Fin cfg1.N) (h0 : t.val % 8 = 0) : cond1_0 (grid1.coords t) := (hcond1_0 t).mpr h0
theorem caseA1 (t : Fin cfg1.N) (h0 : t.val % 8 = 0) : ¬cond1_1 (grid1.coords t) := fun h => by have h' := (hcond1_1 t).mp h; omega
theorem caseN0 (t : Fin cfg1.N) (h0 : ¬t.val % 8 = 0) : ¬cond1_0 (grid1.coords t) := fun h => h0 ((hcond1_0 t).mp h)
theorem caseN1 (t : Fin cfg1.N) (h1 : ¬t.val % 8 = 7) : ¬cond1_1 (grid1.coords t) := fun h => h1 ((hcond1_1 t).mp h)
theorem caseC1 (t : Fin cfg1.N) (h1 : t.val % 8 = 7) : cond1_1 (grid1.coords t) := (hcond1_1 t).mpr h1

section Region1
variable (V : (c : Dev nD) → (b : Ref sig .tc) → Buf (Elt F) ((c : Thread nD τ).loc b))

/-- THE ACCUMULATION: what the accumulator holds after the body at position `n`. -/
def accAt (c : Dev nD) : (n : ℕ) → n < cfg1.N → Vec F S1024x2048 .f32
  | 0, hn => sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) (caseA0 ⟨0, hn⟩ (Nat.zero_mod _)) (caseA1 ⟨0, hn⟩ (Nat.zero_mod _)) (iblk1 V c 0 ⟨0, hn⟩) (iblk1 V c 1 ⟨0, hn⟩) (iblk1 V c 2 ⟨0, hn⟩)
  | n + 1, hn =>
    if h0 : (n + 1) % 8 = 0 then
      sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseA0 ⟨n + 1, hn⟩ h0) (caseA1 ⟨n + 1, hn⟩ h0) (iblk1 V c 0 ⟨n + 1, hn⟩) (iblk1 V c 1 ⟨n + 1, hn⟩) (iblk1 V c 2 ⟨n + 1, hn⟩)
    else if h1 : (n + 1) % 8 = 7 then
      sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseN0 ⟨n + 1, hn⟩ h0) (caseC1 ⟨n + 1, hn⟩ h1) (iblk1 V c 0 ⟨n + 1, hn⟩) (iblk1 V c 1 ⟨n + 1, hn⟩) (iblk1 V c 2 ⟨n + 1, hn⟩) (accAt c n (Nat.lt_of_succ_lt hn))
    else
      sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (caseN0 ⟨n + 1, hn⟩ h0) (caseN1 ⟨n + 1, hn⟩ h1) (iblk1 V c 0 ⟨n + 1, hn⟩) (iblk1 V c 1 ⟨n + 1, hn⟩) (iblk1 V c 2 ⟨n + 1, hn⟩) (accAt c n (Nat.lt_of_succ_lt hn))

theorem accAt_A (c : Dev nD) (t : Fin cfg1.N) (h0 : t.val % 8 = 0) :
    accAt V c t.val t.isLt = sout1_A c (grid1.coords t) (ms1_0 t) (hs1_0 t) (ms1_1 t) (hs1_1 t) (ms1_2 t) (hs1_2 t) (ms1_3 t) (hs1_3 t) scM1 (Memref.isWhole_whole _) (caseA0 t h0) (caseA1 t h0) (iblk1 V c 0 t) (iblk1 V c 1 t) (iblk1 V c 2 t) := by
  obtain ⟨n, hn⟩ := t
  cases n with
  | zero => exact rfl
  | succ n => exact (dif_pos h0).trans rfl

theorem accAt_B (c : Dev nD) (t : Fin cfg1.N) (h0 : ¬t.val % 8 = 0) (h1 : ¬t.val % 8 = 7) :
    accAt V c t.val t.isLt = sout1_B c (grid1.coords t) (ms1_0 t) (hs1_0 t) (ms1_1 t) (hs1_1 t) (ms1_2 t) (hs1_2 t) (ms1_3 t) (hs1_3 t) scM1 (Memref.isWhole_whole _) (caseN0 t h0) (caseN1 t h1) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg1.N) (h0 : ¬t.val % 8 = 0) (h1 : t.val % 8 = 7) :
    accAt V c t.val t.isLt = sout1_C c (grid1.coords t) (ms1_0 t) (hs1_0 t) (ms1_1 t) (hs1_1 t) (ms1_2 t) (hs1_2 t) (ms1_3 t) (hs1_3 t) scM1 (Memref.isWhole_whole _) (caseN0 t h0) (caseC1 t h1) (iblk1 V c 0 t) (iblk1 V c 1 t) (iblk1 V c 2 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output block's buffer holds after the body at a last step: the accumulator (the previous
    point's, plus this point's product) times the row of scales.  At the other points the field is
    not consulted (the window is idle there); zeros stand in. -/
def outAt (c : Dev nD) (t : Fin cfg1.N) : Vec F S1024x2048 .f32 :=
  if h1 : t.val % 8 = 7 then
    out1_C c (grid1.coords t) (ms1_0 t) (hs1_0 t) (ms1_1 t) (hs1_1 t) (ms1_2 t) (hs1_2 t) (ms1_3 t) (hs1_3 t) scM1 (Memref.isWhole_whole _) (caseN0 t (by omega)) (caseC1 t h1) (iblk1 V c 0 t) (iblk1 V c 1 t) (iblk1 V c 2 t) (accAt V c (t.val - 1) (Nat.lt_of_le_of_lt (Nat.sub_le _ _) t.isLt))
  else k1_pay1 (F := F)

theorem outAt_C (c : Dev nD) (t : Fin cfg1.N) (h0 : ¬t.val % 8 = 0) (h1 : t.val % 8 = 7) :
    outAt V c t = out1_C c (grid1.coords t) (ms1_0 t) (hs1_0 t) (ms1_1 t) (hs1_1 t) (ms1_2 t) (hs1_2 t) (ms1_3 t) (hs1_3 t) scM1 (Memref.isWhole_whole _) (caseN0 t h0) (caseC1 t h1) (iblk1 V c 0 t) (iblk1 V c 1 t) (iblk1 V c 2 t) (accAt V c (t.val - 1) (Nat.lt_of_le_of_lt (Nat.sub_le _ _) t.isLt)) := by
  unfold outAt; rw [dif_pos h1]

/-- The region's invariant before position `n`: before the first point the class's; afterwards the
    scoped rest with the accumulator at what the point before left, and the generator register. -/
def PhiS (c : Dev nD) : (n : ℕ) → n ≤ cfg1.N → sProp 𝕄
  | 0, _ => Pipeline.ΦA spec1 c
  | n + 1, hn => iprop(restWith c (owns (c : Thread nD τ) scM1 fullShare (accAt V c n hn)) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(restWith c (owns (c : Thread nD τ) scM1 fullShare (accAt V c n hn)) ∗ (∃ r, prngReg c r)) := rfl
theorem PhiS_pos (c : Dev nD) (n : ℕ) (h : n ≤ cfg1.N) (hz : n ≠ 0) :
    PhiS V c n h = iprop(restWith c (owns (c : Thread nD τ) scM1 fullShare (accAt V c (n - 1) (by omega))) ∗ (∃ r, prngReg c r)) := by
  cases n with
  | zero => exact absurd rfl hz
  | succ n => rfl

/-- The region's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]
theorem leaves1_3 (c : Dev nD) (t : Fin cfg1.N) (h : cond1_1 (grid1.coords t)) : (dat1 V c).leavesExact 3 t = owns (c : Thread nD τ) (ms1_3 t) fullShare (outAt V c t) := by
  unfold Dat.leavesExact; rw [liveAt1_3 t h, after1_3]

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  by_cases h0 : t.val % 8 = 0
  · have hc1 := caseA1 t h0
    rw [Dat.leavesExact_idle (dat1 V c) 3 t (idleAt1_3 t hc1) (noFlush1_3 t hc1)]
    rw [accAt_A V c t h0]
    unfold sout1_A; (try dsimp only)
    by_cases hz : t.val = 0
    · rw [PhiS_castSucc V c t, PhiS_zero V c _ _ hz, PhiA1_eq]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_A c (grid1.coords t) _ _ _ _ _ _ _ _ _ _ (caseA0 t h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_A c (grid1.coords t) _ _ _ _ _ _ _ _ _ _ (caseA0 t h0) hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_A c _ _ _ _ _ _ _ _ _ _ _ _ _ _ _ _)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    have hc0 := caseN0 t h0
    by_cases h1 : t.val % 8 = 7
    · have hc1 := caseC1 t h1
      rw [leaves1_3 V c t hc1, outAt_C V c t h0 h1]
      rw [accAt_C V c t h0 h1]
      unfold out1_C sout1_C; (try dsimp only)
      rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_C c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C c _ _ _ _ _ _ _ _ _ _ _ _ _ _ _ _ _)
    · have hc1 := caseN1 t h1
      rw [Dat.leavesExact_idle (dat1 V c) 3 t (idleAt1_3 t hc1) (noFlush1_3 t hc1)]
      rw [accAt_B V c t h0 h1]
      unfold sout1_B; (try dsimp only)
      rw [PhiS_castSucc V c t, PhiS_pos V c _ _ hz]
      unfold restWith
      iintro ⟨⟨⟨Ha, Hb, Hc, Hd, He, Hf, HS0⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [Ha Hb Hc Hd He Hf HS0 Hg]
      · isplitl [Ha Hb Hc Hd He Hf HS0]
        · isplitl [Ha]; · iexact Ha
          isplitl [Hb]; · iexact Hb
          isplitl [Hc]; · iexact Hc
          isplitl [Hd]; · iexact Hd
          isplitl [He]; · iexact He
          isplitl [Hf]; · iexact Hf
          unfold owns; iexists _; isplitr
          swap; · iexact HS0
          ipureintro; exact View.read_writes_of_cover _ _ _ _ _ (scover1_B c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

theorem forget_acc (c : Dev nD) (X : Vec F S1024x2048 .f32) :
    (owns (c : Thread nD τ) scM1 fullShare X : sProp 𝕄) ⊢ iprop(∃ d, owns (c : Thread nD τ) scM1 fullShare d) := by
  iintro H; iexists _; iexact H

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the class's back: the accumulator's contents are forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 128 := N_1; omega), PhiA1_eq]
  iintro ⟨HS0, Hg⟩
  isplitl [HS0]
  · iapply (restWith_mono c (forget_acc c _))
    iexact HS0
  iexact Hg

theorem hin1' (c : Dev nD) : (iprop(Pipeline.scopedRest (Ix := Unit) (Name := ℕ) (U := UR sig nD τ) (Lvl := ℕ) (Val := Elt F) spec1 c ∗ ∃ r, prngReg c r) : sProp 𝕄) ⊢ (dat1 V c).Φ 0 := by
  have h := hin1 V c; unfold Pipeline.ΦA at h; exact h
theorem hout1' (c : Dev nD) : (dat1 V c).Φ (Fin.last cfg1.N) ⊢ (iprop(Pipeline.scopedRest (Ix := Unit) (Name := ℕ) (U := UR sig nD τ) (Lvl := ℕ) (Val := Elt F) spec1 c ∗ ∃ r, prngReg c r) : sProp 𝕄) := by
  have h := hout1 V c; unfold Pipeline.ΦA at h; exact h

end Region1

end Cert.KernelIdeal.Hand

end
-- ==== Proof.IRun.lean ====
/-
  The whole program as two regions in sequence.  The buffer contents at each boundary are a fold
  from the launch memory: after the quantizer its two output arrays hold what its write-backs leave,
  after the matmul the result array does; every other buffer is as it was.  Each region is entered
  from "every unscoped buffer at the boundary's contents" and left at the next boundary's; the run
  ends with every unscoped buffer at the last boundary's contents, from which the two arguments read
  back as launched.
-/
import proofs.«157252_j3169685865296_2_alg».proof.Proof.IQuant
import proofs.«157252_j3169685865296_2_alg».proof.Proof.IMatmul

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the quantizer: its arrays at what its write-backs leave, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the matmul: its arrays at what its write-backs leave, every other buffer as entered. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-- x is an input of the matmul and untouched by the quantizer. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 0).trans (((dat1 (V1 m ρ) c).arrAt_in 0 rfl _).trans (A_eq1 (V1 m ρ) c 0))
    _ = W0 m ρ c (Proc.devRef .tc main_arg0) := W1_of_ne m ρ c main_arg0 (by decide)
    _ = m ((c : Thread nD τ).loc main_arg0) := rfl
/-- The weight is an input of the quantizer and untouched by the matmul. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- The result array ends at what the matmul's write-backs leave. -/
theorem W2_main_v1 (c : Dev nD) : W2 m ρ c (Proc.devRef .tc main_v1) = (dat1 (V1 m ρ) c).arrAt 3 cfg1.N := W2_arr m ρ c 3
/-- The codes and the scales, as the matmul finds them, are what the quantizer's write-backs leave. -/
theorem V1_main_v0_0 (c : Dev nD) : V1 m ρ c main_v0_0 = (dat0 (V0 m ρ) c).arrAt 1 cfg0.N := W1_arr m ρ c 1
theorem V1_main_v0_1 (c : Dev nD) : V1 m ρ c main_v0_1 = (dat0 (V0 m ρ) c).arrAt 2 cfg0.N := W1_arr m ρ c 2
theorem V1_main_arg0 (c : Dev nD) : V1 m ρ c main_arg0 = m ((c : Thread nD τ).loc main_arg0) := W1_of_ne m ρ c main_arg0 (by decide)

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- The quantizer's region over the thread state. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matmul's region over the thread state. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V1 m ρ) c).Φ 0 from rfl]
    iintro ⟨Hp, -, Hr⟩
    iapply (hin1' (V1 m ρ) c)
    isplitl [Hr]; · iexact Hr
    iexact Hp
  hout c := by
    rw [Pipeline.ownSems0_none, show (pdats m ρ 1 c).Φ (Fin.last _) = (dat1 (V1 m ρ) c).Φ (Fin.last cfg1.N) from rfl]
    iintro Hphi
    ihave H := (hout1' (V1 m ρ) c) $$ Hphi
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates,
    nothing faulting, and every unscoped buffer ends at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W2_main_arg0 m ρ c),
     (h c _ (mem_uc main_arg1 (by decide))).trans (W2_main_arg1 m ρ c)⟩) (run_all m ρ)

end Cert.KernelIdeal.Hand

end
-- ==== Proof.LibTernary.lean ====
/-
  Ternary weights: the mathematics both programs compute, on the extended reals.

  A row w of the weight has the scale s(w) = max(ε, (0 + Σ_k |w_k|) / 4096), with |v| = max(v, −v), and the
  code of an entry v of that row is clamp(round-half-even(v / s), −1, 1).  The reference multiplies each
  code back by its row's scale and then contracts with x; the kernel contracts x with the bare codes and
  multiplies the sum by the scale afterwards.  The two agree because a row's scale is a nonnegative REAL
  number whenever the row's entries are real: multiplication by such a number distributes over every sum
  of extended reals (infinite terms included), and multiplication is associative.
-/
import Mathlib.Data.EReal.Operations
import Mathlib.Data.EReal.Inv
import Idealize.ShloMosaic.PureOps.Ideal
import Idealize.ShloMosaic.PureOps.Ideal.Laws

noncomputable section

open scoped BigOperators

namespace Cert.Ternary

open Idealize.ShloMosaic

/-- The floor ε of a scale, the additive start 0 of a sum, the row length 4096, and the clamp's bounds −1 and 1,
    each as the binary32 word the programs spell it with. -/
abbrev εw : EReal := Ideal.ofBits .f32 0x3727C5AC#32
abbrev zw : EReal := Ideal.ofBits .f32 0x00000000#32
abbrev nw : EReal := Ideal.ofBits .f32 0x45800000#32
abbrev lo : EReal := Ideal.ofBits .f32 0xBF800000#32
abbrev hi : EReal := Ideal.ofBits .f32 0x3F800000#32

/-- The scale of a row: the mean of its absolute values, floored at ε. -/
def rowScale {K : ℕ} (w : Fin K → EReal) : EReal :=
  max εw (Ideal.div (zw + ∑ k, max (w k) (-(w k))) nw)

/-- The ternary code of an entry `v` of a row whose scale is `s`. -/
def code (s v : EReal) : EReal :=
  min hi (max lo (Ideal.liftRound Ideal.roundHalfEven (Ideal.div v s)))

theorem zw_eq : zw = 0 := Ideal.ofBits_zero_f32

theorem nw_eq : nw = ((4096 : ℝ) : EReal) := by
  simp [nw, Ideal.ofBits, Ideal.ieee, -EReal.coe_mul]; norm_num

theorem εw_real : ∃ r : ℝ, 0 ≤ r ∧ εw = (r : EReal) := by
  refine ⟨(2 : ℝ) ^ (-17 : ℤ) * (1 + 2606508 / 2 ^ 23), by positivity, ?_⟩
  simp [εw, Ideal.ofBits, Ideal.ieee, -EReal.coe_mul]; norm_num

/-- A finite sum of reals, read in the extended reals, is the sum of the terms read there. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two reals, read in the extended reals, is the larger of the two read there. -/
theorem max_coe (a b : ℝ) : max (a : EReal) (b : EReal) = ((max a b : ℝ) : EReal) :=
  (EReal.coe_strictMono.monotone.map_max).symm

/-- A row of real entries has a nonnegative real scale. -/
theorem rowScale_real {K : ℕ} (w : Fin K → EReal) (hw : ∀ k, ∃ r : ℝ, w k = (r : EReal)) :
    ∃ r : ℝ, 0 ≤ r ∧ rowScale w = (r : EReal) := by
  choose f hf using hw
  obtain ⟨e, he0, he⟩ := εw_real
  have habs : ∀ k, max (w k) (-(w k)) = ((|f k| : ℝ) : EReal) := fun k => by
    rw [hf k, ← EReal.coe_neg, max_coe, abs_eq_max_neg]
  have hsum : (∑ k, max (w k) (-(w k))) = ((∑ k, |f k| : ℝ) : EReal) := by
    rw [coe_sum]; exact Finset.sum_congr rfl fun k _ => habs k
  refine ⟨max e ((∑ k, |f k|) * (1 / 4096)), le_max_of_le_left he0, ?_⟩
  unfold rowScale
  rw [hsum, zw_eq, zero_add, nw_eq, Ideal.div_coe (by norm_num : (4096 : ℝ) ≠ 0), he, ← EReal.coe_mul, max_coe]

/-- Multiplication by a nonnegative real distributes over any finite sum of extended reals. -/
theorem sum_mul_real {ι : Type*} (s : Finset ι) (a : ι → EReal) (r : ℝ) (hr : 0 ≤ r) :
    ∑ i ∈ s, a i * (r : EReal) = (∑ i ∈ s, a i) * (r : EReal) := by
  classical
  induction s using Finset.induction_on with
  | empty => simp
  | insert j s hj ih =>
    rw [Finset.sum_insert hj, Finset.sum_insert hj, ih,
      EReal.right_distrib_of_nonneg_of_ne_top (EReal.coe_nonneg.mpr hr) (EReal.coe_ne_top r)]

/-- THE LAW that joins the two programs: scaling every code of a row before the contraction is scaling the
    contraction afterwards, when the scale is a nonnegative real. -/
theorem contract_scaled {ι : Type*} (s : Finset ι) (x q : ι → EReal) (σ : EReal) (hσ : ∃ r : ℝ, 0 ≤ r ∧ σ = (r : EReal)) :
    ∑ i ∈ s, x i * (q i * σ) = (∑ i ∈ s, x i * q i) * σ := by
  obtain ⟨r, hr, rfl⟩ := hσ
  rw [← sum_mul_real s _ r hr]
  exact Finset.sum_congr rfl fun i _ => (mul_assoc _ _ _).symm

end Cert.Ternary

end
-- ==== Proof.LibColumn.lean ====
/-
  Column vectors read at an index.

  A vector of length `a` re-laid as an `a × 1` column holds, at row `i`, the vector's entry `i`.
  An `a × 1` column broadcast to `a × b` holds, at `(p, c)`, the column's entry at row `p`.
  Summing an `a × 1` column over its rows, or an `a × b` array over its columns, inserts the summed
  coordinate at the place the reduced index leaves open: the inserted index is `(k, u)` resp. `(r, k)`.
-/
import Idealize.ShloMosaic.Lib.Pipeline.Value
import Idealize.ShloMosaic.Lib.ValueIdx
import Idealize.ShloMosaic.PureOps.Reduce

namespace Cert.LibColumn

open Idealize.ShloMosaic Idealize.ShloMosaic.ValueIdx

variable {α : Type}

/-- A length-`a` vector cast to an `a × 1` column reads, at `(i, 0)`, the vector at `i`:
    both positions are number `i` in row-major order. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Summing an `a × b` array along its columns: the index of row `r` with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- Summing an `a × 1` column along its rows: the one reduced index with row `k` put back is `(k, 0)`. -/
theorem lift_rows {a : ℕ} (h : (⟨2, ![a, 1]⟩ : Shape).Reduces [0] (⟨1, ![1]⟩ : Shape)) (u : Fin 1)
    (k : Fin ((⟨2, ![a, 1]⟩ : Shape).size 0)) : h.lift (ix1 u) k = ix2 (⟨k.val, k.isLt⟩ : Fin a) u := by
  funext c; apply Fin.ext
  fin_cases c <;> rfl

end Cert.LibColumn
-- ==== Proof.IQuantValue.lean ====
/-
  The quantizer's two stored values read at an index, on the extended reals.  Of a block of 256 rows of the
  weight: the scale column holds, at row r, the scale of row r; the code block (stored transposed) holds, at
  (k, r), the code of entry k of row r; the scale row holds, at column r, the scale of row r.
-/
import proofs.«157252_j3169685865296_2_alg».proof.Proof.IQuant
import proofs.«157252_j3169685865296_2_alg».proof.Proof.LibTernary
import proofs.«157252_j3169685865296_2_alg».proof.Proof.LibColumn
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- One whole store leaves its value. -/
theorem out0_1_eq (x0 : Vec F S256x4096 .f32) : out0_1 x0 = k0_pay2 x0 := by
  unfold out0_1; rw [View.canon_unit_zero hz2]; simp only [View.ld_unit_zero (S := S256x4096) hz2]
theorem out0_2_eq (x0 : Vec F S256x4096 .f32) : out0_2 x0 = k0_pay3 x0 := by
  unfold out0_2; rw [View.canon_unit_zero hz2]; simp only [View.ld_unit_zero (S := S256x4096) hz2]

open Cert in
/-- The scale column at row `r`: the scale of the block's row `r`. -/
theorem pay1_apply (x0 : FVec Ideal S256x4096 .f32) (r : Fin 256) (u : Fin 1) :
    k0_pay1 (F := Ideal) x0 (ix2 r u) = Ternary.rowScale (fun k : Fin 4096 => x0 (ix2 r k)) := by
  have hsum : multiReduction (F := Ideal) .add [1] S256 (absf x0) 0x00000000#32 reduces_S256x4096_S256 (.inl rfl) rfl (ix1 r)
      = ∑ k : Fin 4096, max (x0 (ix2 r k)) (-(x0 (ix2 r k))) :=
    (Ideal.multiReduction_add_single (absf x0) 0x00000000#32 reduces_S256x4096_S256 (.inl rfl) rfl (ix1 r)).trans
      (Finset.sum_congr rfl fun k _ => congrArg (absf x0) (LibColumn.lift_cols reduces_S256x4096_S256 r k))
  have hcast := LibColumn.shapeCast_a_a1_apply (multiReduction (F := Ideal) .add [1] S256 (absf x0) 0x00000000#32 reduces_S256x4096_S256 (.inl rfl) rfl) shapeCasts_S256_S256x1 r u
  show max Ternary.εw (Ideal.div (shapeCast S256x1 _ shapeCasts_S256_S256x1 (ix2 r u)) Ternary.nw) = _
  rw [hcast, hsum]; unfold Ternary.rowScale; rw [Ternary.zw_eq, zero_add]

open Cert in
/-- The code block, stored transposed: at `(k, r)` the code of entry `k` of row `r` under row `r`'s scale. -/
theorem pay2_apply (x0 : FVec Ideal S256x4096 .f32) (k : Fin 4096) (r : Fin 256) :
    k0_pay2 (F := Ideal) x0 (ix2 k r) = Ternary.code (k0_pay1 (F := Ideal) x0 (ix2 r (0 : Fin 1))) (x0 (ix2 r k)) := by
  unfold k0_pay2
  rw [truncf_apply]
  refine (transpose_ix2_apply _ transposes_S256x4096_p1_0_S4096x256 k r).trans ?_
  show min Ternary.hi (max Ternary.lo (Ideal.liftRound Ideal.roundHalfEven (Ideal.div (x0 (ix2 r k))
    (broadcastTo S256x4096 (k0_pay1 (F := Ideal) x0) broadcasts_S256x1_S256x4096 (ix2 r k))))) = _
  rw [LibColumn.broadcastTo_a1_ab_apply (k0_pay1 (F := Ideal) x0) broadcasts_S256x1_S256x4096 r k]
  rfl

/-- The scale row: at column `r` the scale column's row `r`. -/
theorem pay3_apply (x0 : FVec Ideal S256x4096 .f32) (u : Fin 1) (r : Fin 256) :
    k0_pay3 (F := Ideal) x0 (ix2 u r) = k0_pay1 (F := Ideal) x0 (ix2 r u) := by
  unfold k0_pay3
  exact transpose_ix2_apply _ transposes_S256x1_p1_0_S1x256 u r

end Cert.KernelIdeal.Hand

end
-- ==== Proof.IQuantArrays.lean ====
/-
  From blocks to arrays, for the quantizer.  Block t of the weight is its rows 256·t .. 256·t + 255; the code
  array's block t is its columns 256·t .. 256·t + 255 (all 4096 rows), the scale array's block t its columns
  256·t .. 256·t + 255.  Every point writes its two blocks back, the blocks tile both arrays, and what point t
  writes is block t of ONE function of the weight: the code array holds at (k, n) the code of entry k of row n,
  the scale array at (0, n) the scale of row n.
-/
import proofs.«157252_j3169685865296_2_alg».proof.Proof.IQuantValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

variable {F : FTy → Type} [FloatOps F]

local notation "𝕄" => MT nD τ sig Unit (Elt F) ℕ (UR sig nD τ) ℕ

open Cert in
/-- The code of entry `k` of row `n` of a weight array, and the scale of its row `n`. -/
def codeAt (W : S4096x4096.Idx → EReal) (n k : Fin 4096) : EReal :=
  Ternary.code (Ternary.rowScale fun k' : Fin 4096 => W (ix2 n k')) (W (ix2 n k))
open Cert in
def scaleAt (W : S4096x4096.Idx → EReal) (n : Fin 4096) : EReal :=
  Ternary.rowScale fun k' : Fin 4096 => W (ix2 n k')

/-- The code array as one function of the weight: transposed, entry `(k, n)` is the code of `W (n, k)`. -/
def GQ (W : S4096x4096.Idx → EReal) : S4096x4096.Idx → EReal :=
  fun i => codeAt W ⟨(i 1).val, (i 1).isLt⟩ ⟨(i 0).val, (i 0).isLt⟩
/-- The scale array as one function of the weight. -/
def GS (W : S4096x4096.Idx → EReal) : S1x4096.Idx → EReal :=
  fun i => scaleAt W ⟨(i 1).val, (i 1).isLt⟩

/-- The printed index maps over the sixteen points. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

section
variable (V : (c : Dev nD) → (b : Ref sig .tc) → Buf (Elt Ideal) ((c : Thread nD τ).loc b))

/-- The weight block at point `t`, entry `(r, k)`: the weight at row `256·t + r`. -/
theorem iblk0_apply (c : Dev nD) (t : Fin cfg0.N) (r : Fin 256) (k : Fin 4096) (hr : t.val * 256 + r.val < 4096) :
    iblk0 V c 0 t (ix2 r k) = V c main_arg1 (ix2 (⟨t.val * 256 + r.val, hr⟩ : Fin 4096) k) := by
  show V c main_arg1 (((cfg0.win 0).blk t).view.emb (ix2 r k)) = _
  refine congrArg (V c main_arg1) (funext fun a => Fin.ext ?_)
  obtain ⟨e0, e1, -⟩ := idx_facts0 t
  match a with
  | ⟨0, _⟩ => show win0_0.index t (0 : Fin 2) * 256 + 1 * r.val = t.val * 256 + r.val; rw [e0]; omega
  | ⟨1, _⟩ => show win0_0.index t (1 : Fin 2) * 4096 + 1 * k.val = k.val; rw [e1]; omega

theorem tlt (t : Fin cfg0.N) (r : Fin 256) : t.val * 256 + r.val < 4096 := by
  have h : t.val < 16 := lt_of_lt_of_eq t.isLt N_0
  have := r.isLt; omega

/-- WHAT POINT `t` WRITES BACK into the code array is block `t` of `GQ` of the weight. -/
theorem flushed0_1_eq (c : Dev nD) (t : Fin cfg0.N) :
    (dat0 V c).flushed 1 t = ((cfg0.win 1).blk t).view.read (Elt Ideal) (GQ (V c main_arg1)) := by
  show (cfg0.win 1).cut (grid0.coords t) ((dat0 V c).after 1 t) = _
  rw [after0_1, out0_1_eq]
  funext j
  obtain ⟨k, r, rfl⟩ : ∃ (k : Fin 4096) (r : Fin 256), j = ix2 k r := ⟨j 0, j 1, eq_ix2 j⟩
  show k0_pay2 (F := Ideal) (iblk0 V c 0 t) (ix2 k r) = GQ (V c main_arg1) (((cfg0.win 1).blk t).view.emb (ix2 k r))
  rw [pay2_apply, pay1_apply]
  obtain ⟨-, -, e2, e3, -⟩ := idx_facts0 t
  have hemb : GQ (V c main_arg1) (((cfg0.win 1).blk t).view.emb (ix2 k r)) = codeAt (V c main_arg1) ⟨t.val * 256 + r.val, tlt t r⟩ k := by
    unfold GQ
    refine congrArg₂ (codeAt (V c main_arg1)) (Fin.ext ?_) (Fin.ext ?_)
    · show win0_1.index t (1 : Fin 2) * 256 + 1 * r.val = t.val * 256 + r.val; rw [e3]; omega
    · show win0_1.index t (0 : Fin 2) * 4096 + 1 * k.val = k.val; rw [e2]; omega
  rw [hemb]; unfold codeAt
  simp only [iblk0_apply V c t _ _ (tlt t r)]

/-- WHAT POINT `t` WRITES BACK into the scale array is block `t` of `GS` of the weight. -/
theorem flushed0_2_eq (c : Dev nD) (t : Fin cfg0.N) :
    (dat0 V c).flushed 2 t = ((cfg0.win 2).blk t).view.read (Elt Ideal) (GS (V c main_arg1)) := by
  show (cfg0.win 2).cut (grid0.coords t) ((dat0 V c).after 2 t) = _
  rw [after0_2, out0_2_eq]
  funext j
  obtain ⟨u, r, rfl⟩ : ∃ (u : Fin 1) (r : Fin 256), j = ix2 u r := ⟨j 0, j 1, eq_ix2 j⟩
  show k0_pay3 (F := Ideal) (iblk0 V c 0 t) (ix2 u r) = GS (V c main_arg1) (((cfg0.win 2).blk t).view.emb (ix2 u r))
  rw [pay3_apply, pay1_apply]
  obtain ⟨-, -, -, -, e4, e5⟩ := idx_facts0 t
  have hemb : GS (V c main_arg1) (((cfg0.win 2).blk t).view.emb (ix2 u r)) = scaleAt (V c main_arg1) ⟨t.val * 256 + r.val, tlt t r⟩ := by
    unfold GS
    refine congrArg (scaleAt (V c main_arg1)) (Fin.ext ?_)
    show win0_2.index t (1 : Fin 2) * 256 + 1 * r.val = t.val * 256 + r.val; rw [e5]; omega
  rw [hemb]; unfold scaleAt
  simp only [iblk0_apply V c t _ _ (tlt t r)]

theorem mem_blk0_1 (t : Fin cfg0.N) (i : S4096x4096.Idx) :
    i ∈ ((cfg0.win 1).blk t).view.set ↔ ∀ a : Fin 2, win0_1.index t a * S4096x256.size a ≤ (i a).val ∧ (i a).val < win0_1.index t a * S4096x256.size a + S4096x256.size a := by
  show i ∈ ((View.whole main_v0_0).slice (win0_1.rect t)).set ↔ _
  rw [View.set_slice_whole, Rect.mem_set_unit]
  exact Iff.rfl
theorem mem_blk0_2 (t : Fin cfg0.N) (i : S1x4096.Idx) :
    i ∈ ((cfg0.win 2).blk t).view.set ↔ ∀ a : Fin 2, win0_2.index t a * S1x256.size a ≤ (i a).val ∧ (i a).val < win0_2.index t a * S1x256.size a + S1x256.size a := by
  show i ∈ ((View.whole main_v0_1).slice (win0_2.rect t)).set ↔ _
  rw [View.set_slice_whole, Rect.mem_set_unit]
  exact Iff.rfl

/-- The point whose blocks hold column `n`: `n / 256`. -/
def ptOf (n : ℕ) (hn : n < 4096) : Fin cfg0.N := ⟨n / 256, by rw [show cfg0.N = 16 from N_0]; omega⟩

theorem cover0_1' (i : S4096x4096.Idx) : ∃ t : Fin cfg0.N, (cfg0.win 1).flush t = true ∧ i ∈ ((cfg0.win 1).blk t).view.set := by
  have hi0 : (i 0).val < 4096 := (i 0).isLt
  have hi1 : (i 1).val < 4096 := (i 1).isLt
  refine ⟨ptOf (i 1).val hi1, flush0_1 _, ?_⟩
  rw [mem_blk0_1]
  obtain ⟨-, -, e2, e3, -⟩ := idx_facts0 (ptOf (i 1).val hi1)
  intro a
  match a with
  | ⟨0, _⟩ => show win0_1.index _ (0 : Fin 2) * 4096 ≤ (i 0).val ∧ (i 0).val < win0_1.index _ (0 : Fin 2) * 4096 + 4096; rw [e2]; omega
  | ⟨1, _⟩ => show win0_1.index _ (1 : Fin 2) * 256 ≤ (i 1).val ∧ (i 1).val < win0_1.index _ (1 : Fin 2) * 256 + 256; rw [e3]; show (i 1).val / 256 * 256 ≤ (i 1).val ∧ (i 1).val < (i 1).val / 256 * 256 + 256; omega

theorem cover0_2' (i : S1x4096.Idx) : ∃ t : Fin cfg0.N, (cfg0.win 2).flush t = true ∧ i ∈ ((cfg0.win 2).blk t).view.set := by
  have hi0 : (i 0).val < 1 := (i 0).isLt
  have hi1 : (i 1).val < 4096 := (i 1).isLt
  refine ⟨ptOf (i 1).val hi1, flush0_2 _, ?_⟩
  rw [mem_blk0_2]
  obtain ⟨-, -, -, -, e4, e5⟩ := idx_facts0 (ptOf (i 1).val hi1)
  intro a
  match a with
  | ⟨0, _⟩ => show win0_2.index _ (0 : Fin 2) * 1 ≤ (i 0).val ∧ (i 0).val < win0_2.index _ (0 : Fin 2) * 1 + 1; rw [e4]; omega
  | ⟨1, _⟩ => show win0_2.index _ (1 : Fin 2) * 256 ≤ (i 1).val ∧ (i 1).val < win0_2.index _ (1 : Fin 2) * 256 + 256; rw [e5]; show (i 1).val / 256 * 256 ≤ (i 1).val ∧ (i 1).val < (i 1).val / 256 * 256 + 256; omega

/-- THE CODE ARRAY after the quantizer. -/
theorem final0_1 (c : Dev nD) : (dat0 V c).arrAt 1 cfg0.N = GQ (V c main_arg1) :=
  (dat0 V c).arrAt_eq_of_cover 1 (GQ (V c main_arg1)) (fun t _ => flushed0_1_eq V c t) cover0_1'
/-- THE SCALE ARRAY after the quantizer. -/
theorem final0_2 (c : Dev nD) : (dat0 V c).arrAt 2 cfg0.N = GS (V c main_arg1) :=
  (dat0 V c).arrAt_eq_of_cover 2 (GS (V c main_arg1)) (fun t _ => flushed0_2_eq V c t) cover0_2'

end

end Cert.KernelIdeal.Hand

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.IMatmulValue.lean ====
/-
  The matmul body's stored values, on the extended reals.  What each case leaves in the accumulator and in
  the output block is the body's arithmetic of the blocks it loaded: the accumulator after a step is its
  previous contents (zero at a first step) plus the block product, entry (p, q) being Σ_k x(p, k)·w(k, q)
  over the 512 columns of the x block; the output block after a last step is the accumulator times the row
  of scales, entry (p, q) being acc(p, q)·s(0, q).
-/
import proofs.«157252_j3169685865296_2_alg».proof.Proof.IMatmul
import proofs.«157252_j3169685865296_2_alg».proof.Proof.IQuantValue
import proofs.«157252_j3169685865296_2_alg».proof.Proof.LibPlainMatmul

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

variable {F : FTy → Type} [FloatOps F]

local notation "𝕄" => MT nD τ sig Unit (Elt F) ℕ (UR sig nD τ) ℕ

/-! ## The pieces each case found are the body's payloads -/

theorem sout1_B_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : ¬cond1_1 i)
    (x0 : Vec F S1024x512 .f32) (x1 : Vec F S512x2048 .bf16) (x2 : Vec F S1x2048 .f32) (xs0 : Vec F S1024x2048 .f32) :
    sout1_B c i arg3 harg3 arg4 harg4 arg5 harg5 arg6 harg6 arg7 harg7 hc0 hc1 x0 x1 x2 xs0 = k1_pay2 x0 x1 xs0 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, harg3.read_unread, harg4.read_unread, harg7.read_unread,
    View.ld_unit_zero (S := S1024x512) hz2, View.ld_unit_zero (S := S512x2048) hz2, View.ld_unit_zero (S := S1024x2048) hz2]

theorem sout1_A_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : cond1_0 i) (hc1 : ¬cond1_1 i)
    (x0 : Vec F S1024x512 .f32) (x1 : Vec F S512x2048 .bf16) (x2 : Vec F S1x2048 .f32) :
    sout1_A c i arg3 harg3 arg4 harg4 arg5 harg5 arg6 harg6 arg7 harg7 hc0 hc1 x0 x1 x2 = k1_pay2 x0 x1 (k1_pay1 (F := F)) := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero hz2]
  simp only [View.readAt_eq_ld, harg3.read_unread, harg4.read_unread, View.readCov_unit_zero (S := S1024x2048) arg7.view hz2,
    View.ld_unit_zero (S := S1024x512) hz2, View.ld_unit_zero (S := S512x2048) hz2, View.ld_unit_zero (S := S1024x2048) hz2]

theorem sout1_C_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    sout1_C c i arg3 harg3 arg4 harg4 arg5 harg5 arg6 harg6 arg7 harg7 hc0 hc1 x0 x1 x2 xs0 = k1_pay2 x0 x1 xs0 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg7.read_unread,
    View.ld_unit_zero (S := S1024x512) hz2, View.ld_unit_zero (S := S512x2048) hz2, View.ld_unit_zero (S := S1024x2048) hz2]

theorem out1_C_eq (c : Dev nD) (i : grid1.Coords) (arg3 : Memref sig .tc .vmem S1024x512 .f32) (harg3 : arg3.IsWhole) (arg4 : Memref sig .tc .vmem S512x2048 .bf16) (harg4 : arg4.IsWhole) (arg5 : Memref sig .tc .vmem S1x2048 .f32) (harg5 : arg5.IsWhole) (arg6 : Memref sig .tc .vmem S1024x2048 .f32) (harg6 : arg6.IsWhole) (arg7 : Memref sig .tc .vmem S1024x2048 .f32) (harg7 : arg7.IsWhole) (hc0 : ¬cond1_0 i) (hc1 : cond1_1 i)
    (x0 : Vec F S1024x512 .f32) (x1 : Vec F S512x2048 .bf16) (x2 : Vec F S1x2048 .f32) (xs0 : Vec F S1024x2048 .f32) :
    out1_C c i arg3 harg3 arg4 harg4 arg5 harg5 arg6 harg6 arg7 harg7 hc0 hc1 x0 x1 x2 xs0 = k1_pay3 (k1_pay2 x0 x1 xs0) x2 := by
  unfold out1_C
  rw [View.read_writes_eq_canon _ _ _ (cover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread, View.readCov_unit_zero (S := S1024x2048) arg7.view hz2,
    View.ld_unit_zero (S := S1024x512) hz2, View.ld_unit_zero (S := S512x2048) hz2, View.ld_unit_zero (S := S1x2048) hz2, View.ld_unit_zero (S := S1024x2048) hz2]

/-! ## The payloads at an index -/

open Cert in
/-- The zeroed accumulator. -/
theorem pay1_zero (p : Fin 1024) (q : Fin 2048) : k1_pay1 (F := Ideal) (ix2 p q) = 0 := by
  unfold k1_pay1
  rw [shapeCast_self]
  exact Ternary.zw_eq

open Cert in
/-- One accumulation step at `(p, q)`. -/
theorem pay2_acc_apply (x : FVec Ideal S1024x512 .f32) (w : FVec Ideal S512x2048 .bf16) (acc : FVec Ideal S1024x2048 .f32)
    (p : Fin 1024) (q : Fin 2048) :
    k1_pay2 (F := Ideal) x w acc (ix2 p q) = acc (ix2 p q) + ∑ k : Fin 512, x (ix2 p k) * w (ix2 k q) := by
  unfold k1_pay2
  rw [shapeCast_self, shapeCast_self]
  show acc (ix2 p q) + FloatOps.matmul dot_S1024x512_S512x2048_S1024x2048_1_0_0_1_n_n none (truncf .bf16 x bitsLt_bf16_f32) w (constant S1024x2048 .f32 0x00000000#32) (ix2 p q) = _
  rw [LibPlainMatmul.matmul_plain_zero_apply dot_S1024x512_S512x2048_S1024x2048_1_0_0_1_n_n rfl none _ w p q]
  rfl

/-- The scaled accumulator at `(p, q)`. -/
theorem pay3_scaled_apply (acc : FVec Ideal S1024x2048 .f32) (s : FVec Ideal S1x2048 .f32) (p : Fin 1024) (q : Fin 2048) :
    k1_pay3 (F := Ideal) acc s (ix2 p q) = acc (ix2 p q) * s (ix2 (0 : Fin 1) q) := by
  unfold k1_pay3
  rw [shapeCast_self]
  show acc (ix2 p q) * broadcastTo S1024x2048 s broadcasts_S1x2048_S1024x2048 (ix2 p q) = _
  rw [broadcastTo_1b_ab_apply s broadcasts_S1x2048_S1024x2048 p q]

end Cert.KernelIdeal.Hand

end
-- ==== Proof.LibBlockSum.lean ====
/-
  Two regrouping laws, stated generally.

  (1) A sum taken block by block.  Given `a · b` terms indexed by the natural numbers below `a · b`, cut them
  into `a` blocks of `b` consecutive terms, so that term `r` of block `t` is term `b·t + r` of the whole.
  In any commutative additive monoid the sum of the `a` block sums is the sum of all the terms.  On the
  extended reals this needs no finiteness assumption: their addition is commutative and associative
  (the sum of `+∞` and `−∞` is a fixed value whatever the order).

  (2) Scaling a square.  On the extended reals `c · (d · d) = (c · d) · d` for every `c` and `d`, infinite ones
  included: multiplication there is associative.
-/
import Mathlib.Data.EReal.Inv
import Mathlib.Algebra.BigOperators.Fin
import Mathlib.Logic.Equiv.Fin.Basic

namespace Cert.LibBlockSum

/-- The sum of `a` block sums of `b` consecutive terms is the sum of all `a · b` terms:
    `∑_{t < a} ∑_{r < b} g (b·t + r) = ∑_{q < a·b} g q`. -/
theorem sum_blocks {M : Type*} [AddCommMonoid M] (a b : ℕ) (g : ℕ → M) :
    ∑ t ∈ Finset.range a, ∑ r : Fin b, g (b * t + r.val) = ∑ q : Fin (a * b), g q.val :=
  calc ∑ t ∈ Finset.range a, ∑ r : Fin b, g (b * t + r.val)
      = ∑ t : Fin a, ∑ r : Fin b, g (b * t.val + r.val) :=
        (Fin.sum_univ_eq_sum_range (fun t => ∑ r : Fin b, g (b * t + r.val)) a).symm
    _ = ∑ p : Fin a × Fin b, g (b * p.1.val + p.2.val) :=
        (Fintype.sum_prod_type' (fun (t : Fin a) (r : Fin b) => g (b * t.val + r.val))).symm
    _ = ∑ q : Fin (a * b), g q.val :=
        Fintype.sum_equiv finProdFinEquiv _ _ fun p =>
          congrArg g (by rw [finProdFinEquiv_apply_val]; exact Nat.add_comm _ _)

/-- Scaling a square is scaling one factor and then multiplying by the other: `c · (d · d) = (c · d) · d`. -/
theorem scale_sq (c d : EReal) : c * (d * d) = c * d * d := (mul_assoc c d d).symm

end Cert.LibBlockSum
-- ==== Proof.IMatmulArrays.lean ====
/-
  From blocks to the result array, for the matmul.  Point t = 16·i + 8·j + s of the grid works on rows
  1024·i .. of x, columns 2048·j .. of the codes and scales, and the s-th group of 512 contraction indices.
  By induction over the points, after point t the accumulator holds at (p, q) the sum over the first s + 1
  groups of x(row, k)·Q(k, col); at a last step (s = 7) this is the sum over all 4096 indices, and the block
  written back is that sum times the scale of the column.  The write-backs (one per output block, at the last
  steps) tile the result array, which so ends holding  (Σ_k x(m, k)·Q(k, n))·S(0, n)  at every (m, n).
-/
import proofs.«157252_j3169685865296_2_alg».proof.Proof.IMatmulValue
import proofs.«157252_j3169685865296_2_alg».proof.Proof.LibBlockSum

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

variable {F : FTy → Type} [FloatOps F]

local notation "𝕄" => MT nD τ sig Unit (Elt F) ℕ (UR sig nD τ) ℕ

/-- The result array as one function of x, the code array and the scale array. -/
def GO (X : S8192x4096.Idx → EReal) (Q : S4096x4096.Idx → EReal) (S : S1x4096.Idx → EReal) : S8192x4096.Idx → EReal :=
  fun i => (∑ k : Fin 4096, X (ix2 (⟨(i 0).val, (i 0).isLt⟩ : Fin 8192) k) * Q (ix2 k (⟨(i 1).val, (i 1).isLt⟩ : Fin 4096)))
    * S (ix2 (0 : Fin 1) (⟨(i 1).val, (i 1).isLt⟩ : Fin 4096))

/-- Term `k` of the contraction for the entry `(row, col)`, over the natural numbers (zero out of range). -/
def gterm (X : S8192x4096.Idx → EReal) (Q : S4096x4096.Idx → EReal) (row col k : ℕ) : EReal :=
  if h : row < 8192 ∧ col < 4096 ∧ k < 4096 then X (ix2 ⟨row, h.1⟩ ⟨k, h.2.2⟩) * Q (ix2 ⟨k, h.2.2⟩ ⟨col, h.2.1⟩) else 0

/-- The sum of the first `n` groups of 512 terms. -/
def partialSum (X : S8192x4096.Idx → EReal) (Q : S4096x4096.Idx → EReal) (row col n : ℕ) : EReal :=
  ∑ s ∈ Finset.range n, ∑ r : Fin 512, gterm X Q row col (512 * s + r.val)

/-- The printed index maps over the 128 points. -/
theorem idx_facts1 : ∀ t : Fin cfg1.N, win1_0.index t (0 : Fin 2) = t.val / 16 ∧ win1_0.index t (1 : Fin 2) = t.val % 8
    ∧ win1_1.index t (0 : Fin 2) = t.val % 8 ∧ win1_1.index t (1 : Fin 2) = t.val / 8 % 2
    ∧ win1_2.index t (0 : Fin 2) = 0 ∧ win1_2.index t (1 : Fin 2) = t.val / 8 % 2
    ∧ win1_3.index t (0 : Fin 2) = t.val / 16 ∧ win1_3.index t (1 : Fin 2) = t.val / 8 % 2 :=
  (by decide +kernel : ∀ t : Fin grid1.N, _)

theorem tlt1 (t : Fin cfg1.N) : t.val < 128 := lt_of_lt_of_eq t.isLt N_1

section
variable (V : (c : Dev nD) → (b : Ref sig .tc) → Buf (Elt Ideal) ((c : Thread nD τ).loc b))

/-- The three input blocks at a point, entry by entry. -/
theorem iblk1_0_apply (c : Dev nD) (t : Fin cfg1.N) (p : Fin 1024) (k : Fin 512)
    (h0 : t.val / 16 * 1024 + p.val < 8192) (h1 : t.val % 8 * 512 + k.val < 4096) :
    iblk1 V c 0 t (ix2 p k) = V c main_arg0 (ix2 (⟨t.val / 16 * 1024 + p.val, h0⟩ : Fin 8192) (⟨t.val % 8 * 512 + k.val, h1⟩ : Fin 4096)) := by
  show V c main_arg0 (((cfg1.win 0).blk t).view.emb (ix2 p k)) = _
  refine congrArg (V c main_arg0) (funext fun a => Fin.ext ?_)
  obtain ⟨e0, e1, -⟩ := idx_facts1 t
  match a with
  | ⟨0, _⟩ => show win1_0.index t (0 : Fin 2) * 1024 + 1 * p.val = t.val / 16 * 1024 + p.val; rw [e0]; omega
  | ⟨1, _⟩ => show win1_0.index t (1 : Fin 2) * 512 + 1 * k.val = t.val % 8 * 512 + k.val; rw [e1]; omega

theorem iblk1_1_apply (c : Dev nD) (t : Fin cfg1.N) (k : Fin 512) (q : Fin 2048)
    (h0 : t.val % 8 * 512 + k.val < 4096) (h1 : t.val / 8 % 2 * 2048 + q.val < 4096) :
    iblk1 V c 1 t (ix2 k q) = V c main_v0_0 (ix2 (⟨t.val % 8 * 512 + k.val, h0⟩ : Fin 4096) (⟨t.val / 8 % 2 * 2048 + q.val, h1⟩ : Fin 4096)) := by
  show V c main_v0_0 (((cfg1.win 1).blk t).view.emb (ix2 k q)) = _
  refine congrArg (V c main_v0_0) (funext fun a => Fin.ext ?_)
  obtain ⟨-, -, e2, e3, -⟩ := idx_facts1 t
  match a with
  | ⟨0, _⟩ => show win1_1.index t (0 : Fin 2) * 512 + 1 * k.val = t.val % 8 * 512 + k.val; rw [e2]; omega
  | ⟨1, _⟩ => show win1_1.index t (1 : Fin 2) * 2048 + 1 * q.val = t.val / 8 % 2 * 2048 + q.val; rw [e3]; omega

theorem iblk1_2_apply (c : Dev nD) (t : Fin cfg1.N) (u : Fin 1) (q : Fin 2048)
    (h1 : t.val / 8 % 2 * 2048 + q.val < 4096) :
    iblk1 V c 2 t (ix2 u q) = V c main_v0_1 (ix2 (0 : Fin 1) (⟨t.val / 8 % 2 * 2048 + q.val, h1⟩ : Fin 4096)) := by
  show V c main_v0_1 (((cfg1.win 2).blk t).view.emb (ix2 u q)) = _
  refine congrArg (V c main_v0_1) (funext fun a => Fin.ext ?_)
  obtain ⟨-, -, -, -, e4, e5, -⟩ := idx_facts1 t
  match a with
  | ⟨0, _⟩ => show win1_2.index t (0 : Fin 2) * 1 + 1 * u.val = 0; rw [e4]; have := u.isLt; omega
  | ⟨1, _⟩ => show win1_2.index t (1 : Fin 2) * 2048 + 1 * q.val = t.val / 8 % 2 * 2048 + q.val; rw [e5]; omega

/-- The block product at a point is the point's group of 512 terms of the contraction. -/
theorem block_product (c : Dev nD) (t : Fin cfg1.N) (p : Fin 1024) (q : Fin 2048)
    (b0 : FVec Ideal S1024x512 .f32) (b1 : FVec Ideal S512x2048 .bf16) (hb0 : b0 = iblk1 V c 0 t) (hb1 : b1 = iblk1 V c 1 t) :
    (∑ k : Fin 512, b0 (ix2 p k) * b1 (ix2 k q))
      = ∑ r : Fin 512, gterm (V c main_arg0) (V c main_v0_0) (t.val / 16 * 1024 + p.val) (t.val / 8 % 2 * 2048 + q.val) (512 * (t.val % 8) + r.val) := by
  have ht := tlt1 t
  subst hb0 hb1
  refine Finset.sum_congr rfl fun k _ => ?_
  have hp := p.isLt; have hq := q.isLt; have hk := k.isLt
  have h0 : t.val / 16 * 1024 + p.val < 8192 := by omega
  have h1 : t.val % 8 * 512 + k.val < 4096 := by omega
  have h2 : t.val / 8 % 2 * 2048 + q.val < 4096 := by omega
  have h3 : 512 * (t.val % 8) + k.val < 4096 := by omega
  rw [iblk1_0_apply V c t p k h0 h1, iblk1_1_apply V c t k q h1 h2]
  unfold gterm
  rw [dif_pos ⟨h0, h2, h3⟩]
  have e : (⟨t.val % 8 * 512 + k.val, h1⟩ : Fin 4096) = ⟨512 * (t.val % 8) + k.val, h3⟩ := Fin.ext (by show t.val % 8 * 512 + k.val = 512 * (t.val % 8) + k.val; omega)
  rw [e]

/-- One accumulation step at a point, entry by entry: the point's group of terms is added. -/
theorem step_apply (c : Dev nD) (t : Fin cfg1.N) (acc : FVec Ideal S1024x2048 .f32) (p : Fin 1024) (q : Fin 2048) :
    k1_pay2 (F := Ideal) (iblk1 V c 0 t) (iblk1 V c 1 t) acc (ix2 p q)
      = acc (ix2 p q) + ∑ r : Fin 512, gterm (V c main_arg0) (V c main_v0_0) (t.val / 16 * 1024 + p.val) (t.val / 8 % 2 * 2048 + q.val) (512 * (t.val % 8) + r.val) :=
  (pay2_acc_apply (iblk1 V c 0 t) (iblk1 V c 1 t) acc p q).trans (congrArg (acc (ix2 p q) + ·) (block_product V c t p q _ _ rfl rfl))

/-- THE ACCUMULATION, entry by entry: after point `t` the accumulator holds the first `t % 8 + 1` groups. -/
theorem accAt_apply (c : Dev nD) : ∀ (n : ℕ) (hn : n < cfg1.N) (p : Fin 1024) (q : Fin 2048),
    accAt V c n hn (ix2 p q) = partialSum (V c main_arg0) (V c main_v0_0) (n / 16 * 1024 + p.val) (n / 8 % 2 * 2048 + q.val) (n % 8 + 1) := by
  intro n
  induction n with
  | zero =>
    intro hn p q
    have hA := accAt_A V c ⟨0, hn⟩ (Nat.zero_mod _)
    rw [show accAt V c 0 hn = accAt V c (⟨0, hn⟩ : Fin cfg1.N).val (⟨0, hn⟩ : Fin cfg1.N).isLt from rfl, hA, sout1_A_eq]
    refine (step_apply V c ⟨0, hn⟩ _ p q).trans ?_
    rw [pay1_zero, zero_add]
    unfold partialSum
    show _ = ∑ s ∈ Finset.range 1, _
    rw [Finset.sum_range_one]
    rfl
  | succ n ih =>
    intro hn p q
    have hN : n + 1 < 128 := lt_of_lt_of_eq hn N_1
    by_cases h0 : (n + 1) % 8 = 0
    · have hA := accAt_A V c ⟨n + 1, hn⟩ h0
      rw [show accAt V c (n + 1) hn = accAt V c (⟨n + 1, hn⟩ : Fin cfg1.N).val (⟨n + 1, hn⟩ : Fin cfg1.N).isLt from rfl, hA, sout1_A_eq]
      refine (step_apply V c ⟨n + 1, hn⟩ _ p q).trans ?_
      rw [pay1_zero, zero_add]
      unfold partialSum
      show ∑ r : Fin 512, gterm _ _ ((n + 1) / 16 * 1024 + p.val) ((n + 1) / 8 % 2 * 2048 + q.val) (512 * ((n + 1) % 8) + r.val) = ∑ s ∈ Finset.range ((n + 1) % 8 + 1), _
      rw [h0, Finset.sum_range_one]
    · have hprev := ih (Nat.lt_of_succ_lt hn) p q
      have e16 : n / 16 = (n + 1) / 16 := by omega
      have e8 : n / 8 % 2 = (n + 1) / 8 % 2 := by omega
      have em : n % 8 + 1 = (n + 1) % 8 := by omega
      rw [e16, e8, em] at hprev
      have hstep : accAt V c (n + 1) hn (ix2 p q) = k1_pay2 (F := Ideal) (iblk1 V c 0 ⟨n + 1, hn⟩) (iblk1 V c 1 ⟨n + 1, hn⟩) (accAt V c n (Nat.lt_of_succ_lt hn)) (ix2 p q) := by
        by_cases h1 : (n + 1) % 8 = 7
        · have hC := accAt_C V c ⟨n + 1, hn⟩ h0 h1
          rw [show accAt V c (n + 1) hn = accAt V c (⟨n + 1, hn⟩ : Fin cfg1.N).val (⟨n + 1, hn⟩ : Fin cfg1.N).isLt from rfl, hC, sout1_C_eq]
          rfl
        · have hB := accAt_B V c ⟨n + 1, hn⟩ h0 h1
          rw [show accAt V c (n + 1) hn = accAt V c (⟨n + 1, hn⟩ : Fin cfg1.N).val (⟨n + 1, hn⟩ : Fin cfg1.N).isLt from rfl, hB, sout1_B_eq]
          rfl
      rw [hstep]
      refine (step_apply V c ⟨n + 1, hn⟩ _ p q).trans ?_
      rw [hprev]
      unfold partialSum
      exact (Finset.sum_range_succ (fun s => ∑ r : Fin 512, gterm (V c main_arg0) (V c main_v0_0) ((n + 1) / 16 * 1024 + p.val) ((n + 1) / 8 % 2 * 2048 + q.val) (512 * s + r.val)) ((n + 1) % 8)).symm

/-- All eight groups are the whole contraction. -/
theorem partialSum_eight (X : S8192x4096.Idx → EReal) (Q : S4096x4096.Idx → EReal) (row col : ℕ) (hr : row < 8192) (hc : col < 4096) :
    partialSum X Q row col 8 = ∑ k : Fin 4096, X (ix2 (⟨row, hr⟩ : Fin 8192) k) * Q (ix2 k (⟨col, hc⟩ : Fin 4096)) := by
  unfold partialSum
  rw [Cert.LibBlockSum.sum_blocks 8 512 (gterm X Q row col)]
  refine Finset.sum_congr rfl fun k _ => ?_
  unfold gterm
  rw [dif_pos ⟨hr, hc, k.isLt⟩]

/-- WHAT A LAST STEP WRITES BACK is its block of `GO`. -/
theorem flushed1_3_eq (c : Dev nD) (t : Fin cfg1.N) (hf : (cfg1.win 3).flush t = true) :
    (dat1 V c).flushed 3 t = ((cfg1.win 3).blk t).view.read (Elt Ideal) (GO (V c main_arg0) (V c main_v0_0) (V c main_v0_1)) := by
  have h7 : t.val % 8 = 7 := (flush1_3 t).mp hf
  have h0 : ¬t.val % 8 = 0 := by omega
  have ht := tlt1 t
  show (cfg1.win 3).cut (grid1.coords t) ((dat1 V c).after 3 t) = _
  rw [after1_3, outAt_C V c t h0 h7, out1_C_eq]
  funext j
  obtain ⟨p, q, rfl⟩ : ∃ (p : Fin 1024) (q : Fin 2048), j = ix2 p q := ⟨j 0, j 1, eq_ix2 j⟩
  have hp := p.isLt; have hq := q.isLt
  have hrow : t.val / 16 * 1024 + p.val < 8192 := by omega
  have hcol : t.val / 8 % 2 * 2048 + q.val < 4096 := by omega
  show k1_pay3 (F := Ideal) _ _ (ix2 p q) = GO (V c main_arg0) (V c main_v0_0) (V c main_v0_1) (((cfg1.win 3).blk t).view.emb (ix2 p q))
  obtain ⟨-, -, -, -, -, -, e6, e7⟩ := idx_facts1 t
  have hemb : GO (V c main_arg0) (V c main_v0_0) (V c main_v0_1) (((cfg1.win 3).blk t).view.emb (ix2 p q))
      = partialSum (V c main_arg0) (V c main_v0_0) (t.val / 16 * 1024 + p.val) (t.val / 8 % 2 * 2048 + q.val) 8
        * (V c main_v0_1 : S1x4096.Idx → EReal) (ix2 (0 : Fin 1) (⟨t.val / 8 % 2 * 2048 + q.val, hcol⟩ : Fin 4096)) := by
    unfold GO
    have er : (⟨((((cfg1.win 3).blk t).view.emb (ix2 p q)) 0).val, ((((cfg1.win 3).blk t).view.emb (ix2 p q)) 0).isLt⟩ : Fin 8192) = ⟨t.val / 16 * 1024 + p.val, hrow⟩ :=
      Fin.ext (by show win1_3.index t (0 : Fin 2) * 1024 + 1 * p.val = t.val / 16 * 1024 + p.val; rw [e6]; omega)
    have ec : (⟨((((cfg1.win 3).blk t).view.emb (ix2 p q)) 1).val, ((((cfg1.win 3).blk t).view.emb (ix2 p q)) 1).isLt⟩ : Fin 4096) = ⟨t.val / 8 % 2 * 2048 + q.val, hcol⟩ :=
      Fin.ext (by show win1_3.index t (1 : Fin 2) * 2048 + 1 * q.val = t.val / 8 % 2 * 2048 + q.val; rw [e7]; omega)
    rw [er, ec, partialSum_eight (V c main_arg0) (V c main_v0_0) _ _ hrow hcol]
  rw [hemb]
  refine (pay3_scaled_apply _ _ p q).trans ?_
  rw [iblk1_2_apply V c t 0 q hcol]
  refine congrArg (· * (V c main_v0_1 : S1x4096.Idx → EReal) (ix2 (0 : Fin 1) (⟨t.val / 8 % 2 * 2048 + q.val, hcol⟩ : Fin 4096))) ?_
  refine (step_apply V c t _ p q).trans ?_
  have hprev := accAt_apply V c (t.val - 1) (Nat.lt_of_le_of_lt (Nat.sub_le _ _) t.isLt) p q
  have e16 : (t.val - 1) / 16 = t.val / 16 := by omega
  have e8 : (t.val - 1) / 8 % 2 = t.val / 8 % 2 := by omega
  have em : (t.val - 1) % 8 + 1 = 7 := by omega
  rw [hprev, e16, e8, em, h7]
  unfold partialSum
  exact (Finset.sum_range_succ (fun s => ∑ r : Fin 512, gterm (V c main_arg0) (V c main_v0_0) (t.val / 16 * 1024 + p.val) (t.val / 8 % 2 * 2048 + q.val) (512 * s + r.val)) 7).symm

theorem mem_blk1_3 (t : Fin cfg1.N) (i : S8192x4096.Idx) :
    i ∈ ((cfg1.win 3).blk t).view.set ↔ ∀ a : Fin 2, win1_3.index t a * S1024x2048.size a ≤ (i a).val ∧ (i a).val < win1_3.index t a * S1024x2048.size a + S1024x2048.size a := by
  show i ∈ ((View.whole main_v1).slice (win1_3.rect t)).set ↔ _
  rw [View.set_slice_whole, Rect.mem_set_unit]
  exact Iff.rfl

theorem cover1_3' (i : S8192x4096.Idx) : ∃ t : Fin cfg1.N, (cfg1.win 3).flush t = true ∧ i ∈ ((cfg1.win 3).blk t).view.set := by
  have hi0 : (i 0).val < 8192 := (i 0).isLt
  have hi1 : (i 1).val < 4096 := (i 1).isLt
  let t : Fin cfg1.N := ⟨16 * ((i 0).val / 1024) + 8 * ((i 1).val / 2048) + 7, by rw [show cfg1.N = 128 from N_1]; omega⟩
  have htv : t.val = 16 * ((i 0).val / 1024) + 8 * ((i 1).val / 2048) + 7 := rfl
  refine ⟨t, (flush1_3 t).mpr (by rw [htv]; omega), ?_⟩
  rw [mem_blk1_3]
  obtain ⟨-, -, -, -, -, -, e6, e7⟩ := idx_facts1 t
  intro a
  match a with
  | ⟨0, _⟩ => show win1_3.index t (0 : Fin 2) * 1024 ≤ (i 0).val ∧ (i 0).val < win1_3.index t (0 : Fin 2) * 1024 + 1024; rw [e6, htv]; omega
  | ⟨1, _⟩ => show win1_3.index t (1 : Fin 2) * 2048 ≤ (i 1).val ∧ (i 1).val < win1_3.index t (1 : Fin 2) * 2048 + 2048; rw [e7, htv]; omega

/-- THE RESULT ARRAY after the matmul. -/
theorem final1_3 (c : Dev nD) : (dat1 V c).arrAt 3 cfg1.N = GO (V c main_arg0) (V c main_v0_0) (V c main_v0_1) :=
  (dat1 V c).arrAt_eq_of_cover 3 (GO (V c main_arg0) (V c main_v0_0) (V c main_v0_1)) (fun t hf => flushed1_3_eq V c t hf) cover1_3'

end

end Cert.KernelIdeal.Hand

end
-- ==== Proof.RefValue.lean ====
/-
  The reference, entry by entry, on the extended reals: its result at (m, n) is the contraction over k of
  x(m, k) with the rescaled code  code(W(n, k)) · scale(n)  of the weight's row n.
-/
import proofs.«157252_j3169685865296_2_alg».proof.Proof.Gen.ReferenceIdeal.Read
import proofs.«157252_j3169685865296_2_alg».proof.Proof.LibTernary
import Idealize.ShloMosaic.Lib.ValueIdx

noncomputable section

open scoped BigOperators

namespace Cert.ReferenceIdeal.RefValue

open Cert.ReferenceIdeal Cert.ReferenceIdeal.Read Idealize.ShloMosaic Idealize.ShloMosaic.ValueIdx

/-- The clipped mean of absolute values of row `n`, as the reference computes it, is the row's scale. -/
theorem scale_apply (W : S4096x4096.Idx → EReal) (n : Fin 4096) (u : Fin 1) :
    val_main_v5 (F := Ideal) W (ix2 n u) = Ternary.rowScale (fun k' : Fin 4096 => W (ix2 n k')) := by
  rw [val_main_v5_apply, val_main_call0_v1_apply, val_main_call0_v0_apply, val_main_cst_1_apply, val_main_v4_apply,
    val_main_v2_apply, val_main_v3_apply, val_main_cst_0_apply, val_main_v1_apply, val_main_cst_apply]
  unfold Ternary.rowScale
  show max Ternary.εw (Ideal.div (Ternary.zw + ∑ k : Fin 4096, val_main_v0 (F := Ideal) W (idx_main_v1 (idx_main_v2 (ix2 n u)) k)) Ternary.nw) = _
  refine congrArg (fun s => max Ternary.εw (Ideal.div (Ternary.zw + s) Ternary.nw)) (Finset.sum_congr rfl fun k _ => ?_)
  rw [val_main_v0_apply]
  have e : idx_main_v1 (idx_main_v2 (ix2 n u)) k = ix2 n k :=
    funext fun a => Fin.ext (by match a with | ⟨0, _⟩ => rfl | ⟨1, _⟩ => rfl)
  rw [e]; rfl

/-- The reference's result at `(m, n)`. -/
theorem result_apply (x : S8192x4096.Idx → EReal) (W : S4096x4096.Idx → EReal) (m : Fin 8192) (n : Fin 4096) :
    val_main_v13 (F := Ideal) x W (ix2 m n)
      = ∑ k : Fin 4096, x (ix2 m k) * (Ternary.code (Ternary.rowScale fun k' : Fin 4096 => W (ix2 n k')) (W (ix2 n k))
          * Ternary.rowScale fun k' : Fin 4096 => W (ix2 n k')) := by
  rw [val_main_v13_apply]
  refine Finset.sum_congr rfl fun k _ => ?_
  have hl : lidx_main_v13 (ix2 m n) k = ix2 m k :=
    funext fun a => Fin.ext (by match a with | ⟨0, _⟩ => rfl | ⟨1, _⟩ => rfl)
  have hr : idx_main_v12 (ridx_main_v13 (ix2 m n) k) = ix2 n k :=
    funext fun a => Fin.ext (by match a with | ⟨0, _⟩ => rfl | ⟨1, _⟩ => rfl)
  have h6 : idx_main_v6 (ix2 n k) = ix2 n (0 : Fin 1) :=
    funext fun a => Fin.ext (by match a with | ⟨0, _⟩ => rfl | ⟨1, _⟩ => rfl)
  have h10 : idx_main_v10 (ix2 n k) = ix2 n (0 : Fin 1) :=
    funext fun a => Fin.ext (by match a with | ⟨0, _⟩ => rfl | ⟨1, _⟩ => rfl)
  rw [hl, val_main_v12_apply, hr, val_main_v11_apply, val_main_v10_apply, h10, scale_apply, val_main_v9_apply,
    val_main_call2_v4_apply, val_main_call2_v3_apply, val_main_cst_3_apply, val_main_call2_v2_apply, val_main_call2_v1_apply,
    val_main_call2_v0_apply, val_main_cst_2_apply, val_main_v8_apply, val_main_v7_apply, val_main_v6_apply, h6, scale_apply]
  rfl

end Cert.ReferenceIdeal.RefValue

end
-- ==== Proof.KernelResult.lean ====
/-
  The kernel program's result, and why it is the reference's.  After the two regions the result array holds at
  (m, n) the contraction of x's row m with the codes of the weight's row n, times that row's scale; the
  reference holds the contraction of x's row m with the codes already multiplied by the scale.  When the weight's
  entries are real the scale is a nonnegative real, and the two are equal.
-/
import proofs.«157252_j3169685865296_2_alg».proof.Proof.IRun
import proofs.«157252_j3169685865296_2_alg».proof.Proof.IQuantArrays
import proofs.«157252_j3169685865296_2_alg».proof.Proof.IMatmulArrays
import proofs.«157252_j3169685865296_2_alg».proof.Proof.RefValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open scoped BigOperators

variable {F : FTy → Type} [FloatOps F]

local notation "𝕄" => MT nD τ sig Unit (Elt F) ℕ (UR sig nD τ) ℕ

section
variable (m : (ℓ : Loc nD τ sig) → Buf (Elt Ideal) ℓ) (ρ : Dev nD → PrngReg)

/-- The result array after the run, as one function of the two arguments. -/
theorem result_v1 (c : Dev nD) :
    W2 m ρ c (Proc.devRef .tc main_v1)
      = GO (m ((c : Thread nD τ).loc main_arg0)) (GQ (m ((c : Thread nD τ).loc main_arg1))) (GS (m ((c : Thread nD τ).loc main_arg1))) := by
  rw [W2_main_v1, final1_3 (V1 m ρ) c, V1_main_arg0, V1_main_v0_0, V1_main_v0_1, final0_1 (V0 m ρ) c, final0_2 (V0 m ρ) c]

end

open Cert in
/-- THE BRIDGE: for a weight of real entries the kernel's function of the arguments is the reference's. -/
theorem bridge (x : S8192x4096.Idx → EReal) (W : S4096x4096.Idx → EReal) (hW : ∀ i, ∃ r : ℝ, W i = (r : EReal)) :
    GO x (GQ W) (GS W) = Cert.ReferenceIdeal.Read.val_main_v13 (F := Ideal) x W := by
  funext i
  obtain ⟨mm, n, rfl⟩ : ∃ (mm : Fin 8192) (n : Fin 4096), i = ix2 mm n := ⟨i 0, i 1, eq_ix2 i⟩
  rw [Cert.ReferenceIdeal.RefValue.result_apply]
  show (∑ k : Fin 4096, x (ix2 mm k) * codeAt W n k) * scaleAt W n = _
  unfold codeAt scaleAt
  exact Ternary.contract_scaled Finset.univ (fun k : Fin 4096 => x (ix2 mm k))
    (fun k : Fin 4096 => Ternary.code (Ternary.rowScale fun k' : Fin 4096 => W (ix2 n k')) (W (ix2 n k))) _
    (Ternary.rowScale_real _ (fun k' => hW (ix2 n k'))) |>.symm

end Cert.KernelIdeal.Hand

end
-- ==== Proof.FiniteWeight.lean ====
/-
  What the precondition says of the weight: every entry is a real number.  The precondition is the conjunction
  of two "all entries satisfy |v| < +∞"; an extended real whose absolute value max(v, −v) is below +∞ is neither
  infinity, so it is a real.
-/
import proofs.«157252_j3169685865296_2_alg».proof.Pre_finite_inputs
import Idealize.ShloMosaic.Lib.ReduceAll
import Idealize.ShloMosaic.Lib.ValueIdx
import Idealize.ShloMosaic.PureOps.Ideal.Laws

noncomputable section

namespace Cert.FiniteWeight

open Idealize.ShloMosaic

instance : Subsingleton Cert.Pre_finite_inputs.S_.Idx := ⟨fun a b => funext fun d => d.elim0⟩

/-- An extended real with |v| < +∞ is a real. -/
theorem real_of_abs_lt_inf (x : EReal) (h : Ideal.cmp .olt (max x (-x)) (Ideal.ofBits .f32 0x7F800000#32) = 1#1) :
    ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- Under the precondition every entry of the second argument is a real. -/
theorem weight_real [Cert.Pre_finite_inputs.Facts] (x : FVec Ideal Cert.Pre_finite_inputs.S8192x4096 .f32)
    (W : FVec Ideal Cert.Pre_finite_inputs.S4096x4096 .f32)
    (h : Cert.Pre_finite_inputs.fn (F := Ideal) x W = fun _ => 1#1) (i : Cert.Pre_finite_inputs.S4096x4096.Idx) :
    ∃ r : ℝ, W i = (r : EReal) := by
  have h0 := congrFun h ValueIdx.ix0
  dsimp only [Cert.Pre_finite_inputs.fn] at h0
  obtain ⟨-, h2⟩ := IntOp.andi_eq_one.mp h0
  have h3 := Host.reduce_andi_all _ _ _ _ ValueIdx.ix0 h2 i
  exact real_of_abs_lt_inf (W i) h3

end Cert.FiniteWeight

end
-- ==== Proof.lean ====
/-
  Per-row ternary weights: the kernel quantizes the weight row by row (scale = floored mean of absolute values,
  codes in {−1, 0, 1}), contracts x with the bare codes block by block, and multiplies by the scale at the end;
  the reference multiplies the codes by the scale first and contracts once.

  Frames: both kernel programs are two pipelined regions in sequence; each region's body is run once per case
  of its branches, the matmul's accumulator carried between grid points by the region's invariant.  The
  reference's frame is its run.  Nothing was rewritten by the idealization, so `preserves` is trivial.
  The algebraic claim: the kernel's result array is read back entry by entry as (Σ_k x·code)·scale, the
  reference's as Σ_k x·(code·scale); the precondition makes every scale a nonnegative real, for which the two
  agree on the extended reals.
-/
import proofs.«157252_j3169685865296_2_alg».proof.Defs
import proofs.«157252_j3169685865296_2_alg».proof.Proof.Gen.Kernel
import proofs.«157252_j3169685865296_2_alg».proof.Proof.Gen.KernelIdeal
import proofs.«157252_j3169685865296_2_alg».proof.Proof.Gen.ReferenceIdeal
import proofs.«157252_j3169685865296_2_alg».proof.Proof.Gen.ReferenceIdeal.Run
import proofs.«157252_j3169685865296_2_alg».proof.Proof.Gen.Pre_finite_inputs
import proofs.«157252_j3169685865296_2_alg».proof.Proof.BRun
import proofs.«157252_j3169685865296_2_alg».proof.Proof.KernelResult
import proofs.«157252_j3169685865296_2_alg».proof.Proof.FiniteWeight
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

open Cert.KernelIdeal Cert.KernelIdeal.Hand in
theorem algebraic : Cert.algebraic_KernelIdeal_ReferenceIdeal := by
  intro m ρ m' ρ' hpre hagree
  refine ⟨fun c => GO (m ((c : Thread nD τ).loc main_arg0)) (GQ (m ((c : Thread nD τ).loc main_arg1))) (GS (m ((c : Thread nD τ).loc main_arg1))), ?_, ?_⟩
  · exact (θ_run Cert.KernelIdeal.defs _ _).mono (fun r h c =>
      ⟨(h c _ (mem_uc main_v1 (by decide))).trans (result_v1 m ρ c),
       (h c _ (mem_uc main_arg0 (by decide))).trans (W2_main_arg0 m ρ c),
       (h c _ (mem_uc main_arg1 (by decide))).trans (W2_main_arg1 m ρ c)⟩) (run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v13_eq, (hagree c).1, (hagree c).2]
    exact (bridge _ _ (fun i => Cert.FiniteWeight.weight_real _ _ (hpre c) i)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
